-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S256x4096 : Shape := ⟨2, ![256, 4096]⟩
abbrev S1024x1024 : Shape := ⟨2, ![1024, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_13 : BitVec 32 := 0#32
  let v24 : BitVec 1 := Scalar.cmpi .ne v23 c0_i32_13
  v24

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  natLt_1_32 : 1 < 32
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S4096x4096, .f32⟩
  | .hbm, ⟨21, _⟩ => ⟨S4096x4096, .f32⟩
  | .hbm, ⟨22, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.SignDiffBits.lean ====
/-
  The first pallas_call, on its own: a grid of 16 points, point `t` taking rows `256 t … 256 t + 255` of the two
  weight arrays (4096 columns each) and writing the same rows of the ternary weight array. The body reads both
  blocks whole and stores ONE value covering the output block — the difference of the two sign indicators, entry
  by entry. Stated over a parameter `V`: what the core's buffers hold when the call is entered.
-/
import proofs.«181194_j68719476736056_2_alg».proof.Proof.Gen.Kernel.Launch
import proofs.«181194_j68719476736056_2_alg».proof.Proof.Gen.Kernel.Skeleton
import proofs.«181194_j68719476736056_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the three windows -/

/-- Window `w`'s block at point `t`, read off the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point: it is fetched at every
    point, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the output window's buffer -/

/-- The whole 256 × 4096 block as one rectangle. -/
abbrev whole0 : Rect S256x4096 := Rect.unit (s := S256x4096) ![0, 0] S256x4096.size inb_S256x4096_S256x4096_0_0

/-- The output buffer after the body: the one store's value over the two input blocks, as a one-piece canon. -/
def signDiff (p n : Vec F S256x4096 .f32) : Vec F S256x4096 .bf16 :=
  View.canon [⟨whole0, k0_pay1 (View.ld p whole0) (View.ld n whole0)⟩]

/-- The one rectangle covers the block. -/
theorem cover0 (p0 : Vec F S256x4096 .bf16) (y : S256x4096.Idx) :
    ∃ pc ∈ ([⟨whole0, p0⟩] : List (View.Piece (Elt F) S256x4096 .bf16)), y ∈ pc.1.set :=
  View.cover_of_tiled [⟨whole0, p0⟩] S256x4096.size (by rfl) y

/-! ## The body's triple -/

set_option maxHeartbeats 1000000 in
/-- On whole staging buffers, the two inputs at contents `p`, `n` and the output at anything, the body runs to the
    continuation with the inputs as they were and the output at `signDiff p n`. -/
theorem sound_kernel0 (c : Dev nD) (E : Set ℕ) (i : grid0.Coords)
    (arg1 : Memref sig .tc .vmem S256x4096 .f32) (harg1 : arg1.IsWhole) (arg2 : Memref sig .tc .vmem S256x4096 .f32) (harg2 : arg2.IsWhole)
    (arg3 : Memref sig .tc .vmem S256x4096 .bf16) (harg3 : arg3.IsWhole)
    (p n : Vec F S256x4096 .f32) (K : PUnit → sProp 𝕄) :
    iprop(owns (c : Thread nD τ) arg1 fullShare p ∗ owns (c : Thread nD τ) arg2 fullShare n ∗ (∃ d, owns (c : Thread nD τ) arg3 fullShare d)
        ∗ (iprop(owns (c : Thread nD τ) arg1 fullShare p ∗ owns (c : Thread nD τ) arg2 fullShare n ∗ owns (c : Thread nD τ) arg3 fullShare (signDiff p n)) -∗ K ⟨⟩))
      ⊢ wp frame (wpE (defs₀ (F := F)) Variants.none c none) E (cc0__binarize_kernel i arg1 harg1 arg2 harg2 arg3 harg3) K := by
  simp only [cc0__binarize_kernel_eq_skeleton]; unfold cc0__binarize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The proof data of the call -/

/-- After the body at point `t`: each input buffer at its block, the output buffer at `signDiff` of the two
    blocks; nothing is kept between points beyond the buffers no window stages and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => signDiff (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = signDiff (blk0 V c 0 t) (blk0 V c 1 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.AccBodyBits.lean ====
/-
  The second pallas_call's body, on its own: a 4 × 4 × 4 grid whose last axis `k` walks the four 1024-wide
  blocks of the contracted dimension. The body keeps a 1024 × 1024 accumulator in a scratch buffer that lives
  across grid points: where `k = 0` it first clears it; at every point it adds to it, in two stores, the product of
  the point's `x` block with the point's weight block and then the product of the block's rounding residue with
  the same weight block; where `k = 3` it stores the accumulator's positivity indicator into the output window.
  Three control cases meet the grid (`k = 0`; `k = 1, 2`; `k = 3`): one triple each.
-/
import proofs.«181194_j68719476736056_2_alg».proof.Proof.Gen.Kernel.Launch
import proofs.«181194_j68719476736056_2_alg».proof.Proof.Gen.Kernel.Skeleton
import proofs.«181194_j68719476736056_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's four stored values, by what they do to the accumulator -/

/-- The cleared accumulator. -/
abbrev accZero : Vec F S1024x1024 .f32 := k1_pay1 (F := F)
/-- One point's update of the accumulator `s` from the point's `x` block and weight block: the two additions in
    the order the body makes them. -/
abbrev accStep (x : Vec F S1024x1024 .f32) (w : Vec F S1024x1024 .bf16) (s : Vec F S1024x1024 .f32) : Vec F S1024x1024 .f32 :=
  k1_pay5 x w (k1_pay4 x w s)
/-- The positivity indicator of the accumulator. -/
abbrev accSign (s : Vec F S1024x1024 .f32) : Vec F S1024x1024 .f32 := k1_pay6 s

/-! ## The two conditions, decided over the grid -/

/-- `k = 0`, as the body computes it. -/
abbrev isFirst (i : grid1.Coords) : Prop := (Scalar.cmpi .ne (Scalar.extui (Scalar.cmpi .eq (BitVec.ofNat 32 (i 2).val) 0#32)) 0#32) = 1#1
/-- `k = 3`, as the body computes it. -/
abbrev isLast (i : grid1.Coords) : Prop := k1_cond2 i = 1#1

/-- The last axis is the fastest: `k` is the point's number modulo 4. -/
theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-- The input windows are stored into nowhere and idle nowhere; the output window is live exactly where `k = 3`, and
    elsewhere it is neither stored into nor written back. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, t.val % 4 = 3 → cfg1.idle 2 (grid1.coords t) = false := by decide +kernel
theorem idle1_2 : ∀ t : Fin cfg1.N, ¬ t.val % 4 = 3 → cfg1.idle 2 (grid1.coords t) = true := by decide +kernel
theorem noFlush1_2 : ∀ t : Fin cfg1.N, ¬ t.val % 4 = 3 → (cfg1.win 2).flush t = false := by decide +kernel

/-! ## The whole-buffer rectangle -/

abbrev whole1 : Rect S1024x1024 := Rect.unit (s := S1024x1024) ![0, 0] S1024x1024.size inb_S1024x1024_S1024x1024_0_0
theorem zeros2 : (![0, 0] : Fin 2 → Nat) = fun _ => 0 := by funext a; fin_cases a <;> rfl

/-! ## The body's triples, one per control case -/

set_option maxHeartbeats 4000000 in
/-- `k = 0`: whatever the scratch held, it ends at one update of the cleared accumulator; the output buffer is
    handed back as found. -/
theorem sound_first (c : Dev nD) (E : Set ℕ) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (x : Vec F S1024x1024 .f32) (w : Vec F S1024x1024 .bf16) (K : PUnit → sProp 𝕄)
    (hc0 : isFirst i) (hc1 : ¬ isLast i) (o : Vec F S1024x1024 .f32) :
    iprop(owns (c : Thread nD τ) arg3 fullShare x ∗ owns (c : Thread nD τ) arg4 fullShare w ∗ owns (c : Thread nD τ) arg5 fullShare o ∗ (∃ d, owns (c : Thread nD τ) arg6 fullShare d)
        ∗ (iprop(owns (c : Thread nD τ) arg3 fullShare x ∗ owns (c : Thread nD τ) arg4 fullShare w ∗ owns (c : Thread nD τ) arg5 fullShare o
            ∗ owns (c : Thread nD τ) arg6 fullShare (accStep x w accZero)) -∗ K ⟨⟩))
      ⊢ wp frame (wpE (defs₀ (F := F)) Variants.none c none) E (cc1__btnn_matmul_kernel i arg3 harg3 arg4 harg4 arg5 harg5 arg6 harg6) K := by
  simp only [cc1__btnn_matmul_kernel_eq_skeleton]; unfold cc1__btnn_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero zeros2 inb_S1024x1024_S1024x1024_0_0 y⟩),
    View.canon_cons_unit_zero zeros2]
  simp only [View.readCov_cons_toLoadRect, View.readAt_eq_ld, View.ld_unit_zero (S := S1024x1024) zeros2]

set_option maxHeartbeats 4000000 in
/-- `k = 1, 2`: the scratch goes from `s` to one update of `s`; the output buffer is handed back as found. -/
theorem sound_mid (c : Dev nD) (E : Set ℕ) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (x : Vec F S1024x1024 .f32) (w : Vec F S1024x1024 .bf16) (K : PUnit → sProp 𝕄)
    (hc0 : ¬ isFirst i) (hc1 : ¬ isLast i) (o s : Vec F S1024x1024 .f32) :
    iprop(owns (c : Thread nD τ) arg3 fullShare x ∗ owns (c : Thread nD τ) arg4 fullShare w ∗ owns (c : Thread nD τ) arg5 fullShare o ∗ owns (c : Thread nD τ) arg6 fullShare s
        ∗ (iprop(owns (c : Thread nD τ) arg3 fullShare x ∗ owns (c : Thread nD τ) arg4 fullShare w ∗ owns (c : Thread nD τ) arg5 fullShare o
            ∗ owns (c : Thread nD τ) arg6 fullShare (accStep x w s)) -∗ K ⟨⟩))
      ⊢ wp frame (wpE (defs₀ (F := F)) Variants.none c none) E (cc1__btnn_matmul_kernel i arg3 harg3 arg4 harg4 arg5 harg5 arg6 harg6) K := by
  simp only [cc1__btnn_matmul_kernel_eq_skeleton]; unfold cc1__btnn_matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero zeros2 inb_S1024x1024_S1024x1024_0_0 y⟩),
    View.canon_cons_unit_zero zeros2]
  simp only [View.readCov_cons_toLoadRect, View.readAt_eq_ld, View.ld_unit_zero (S := S1024x1024) zeros2]

set_option maxHeartbeats 4000000 in
/-- `k = 3`: the scratch goes from `s` to one update of `s`, and the output buffer, whatever it held, ends at the
    positivity indicator of the updated accumulator. -/
theorem sound_last (c : Dev nD) (E : Set ℕ) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (x : Vec F S1024x1024 .f32) (w : Vec F S1024x1024 .bf16) (K : PUnit → sProp 𝕄)
    (hc0 : ¬ isFirst i) (hc1 : isLast i) (s : Vec F S1024x1024 .f32) :
    iprop(owns (c : Thread nD τ) arg3 fullShare x ∗ owns (c : Thread nD τ) arg4 fullShare w ∗ (∃ d, owns (c : Thread nD τ) arg5 fullShare d) ∗ owns (c : Thread nD τ) arg6 fullShare s
        ∗ (iprop(owns (c : Thread nD τ) arg3 fullShare x ∗ owns (c : Thread nD τ) arg4 fullShare w ∗ owns (c : Thread nD τ) arg5 fullShare (accSign (accStep x w s))
            ∗ owns (c : Thread nD τ) arg6 fullShare (accStep x w s)) -∗ K ⟨⟩))
      ⊢ wp frame (wpE (defs₀ (F := F)) Variants.none c none) E (cc1__btnn_matmul_kernel i arg3 harg3 arg4 harg4 arg5 harg5 arg6 harg6) K := by
  simp only [cc1__btnn_matmul_kernel_eq_skeleton]; unfold cc1__btnn_matmul_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero zeros2 inb_S1024x1024_S1024x1024_0_0 y⟩),
      View.canon_cons_unit_zero zeros2]
    simp only [View.readCov_cons_toLoadRect, View.readAt_eq_ld, View.ld_unit_zero (S := S1024x1024) zeros2]
  iexists _; isplitr
  swap; · iexact H3
  ipureintro
  sl_unfold_run_names
  rw [View.read_writes_eq_canon _ _ _ (fun y => ⟨_, List.mem_cons_self, View.mem_set_unit_zero zeros2 inb_S1024x1024_S1024x1024_0_0 y⟩),
    View.canon_cons_unit_zero zeros2]
  simp only [View.readCov_cons_toLoadRect, View.readAt_eq_ld, View.ld_unit_zero (S := S1024x1024) zeros2]

end Cert.Kernel.Fr

end
-- ==== Proof.AccDataBits.lean ====
/-
  The second pallas_call's accumulator across its grid, and the call's proof data. Grid point `n` has
  `k = n mod 4`; a run of four consecutive points shares one output block, starts from the cleared accumulator and
  folds in one block of the contracted dimension per point. `acc n` is what the scratch holds after point `n`;
  the region's invariant carries the scratch at that value from one point to the next, and the output window's
  buffer, live only at the last point of a run, ends there at the positivity indicator of the accumulator.
-/
import proofs.«181194_j68719476736056_2_alg».proof.Proof.Gen.Kernel.Launch
import proofs.«181194_j68719476736056_2_alg».proof.Proof.Gen.Kernel.Skeleton
import proofs.«181194_j68719476736056_2_alg».proof.Proof.Gen.Kernel.Points
import Idealize.ShloMosaic.Lib.Pipeline.Value
import proofs.«181194_j68719476736056_2_alg».proof.Proof.AccBodyBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the three windows -/

/-- Window `w`'s block at point `t`, read off the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The point's `x` block and weight block as plain 1024 × 1024 values. -/
abbrev xAt (c : Dev nD) (t : Fin cfg1.N) : Vec F S1024x1024 .f32 := blk1 V c 0 t
abbrev wAt (c : Dev nD) (t : Fin cfg1.N) : Vec F S1024x1024 .bf16 := blk1 V c 1 t

/-! ## The accumulator after each point -/

/-- What the scratch holds after point `n`: one update, of the cleared accumulator where `n mod 4 = 0` and of
    what point `n - 1` left elsewhere. -/
def acc (c : Dev nD) : ℕ → Vec F S1024x1024 .f32
  | 0 => if h : 0 < cfg1.N then accStep (xAt V c ⟨0, h⟩) (wAt V c ⟨0, h⟩) accZero else accZero
  | n + 1 => if h : n + 1 < cfg1.N then
      accStep (xAt V c ⟨n + 1, h⟩) (wAt V c ⟨n + 1, h⟩) (if (n + 1) % 4 = 0 then accZero else acc c n)
    else acc c n

theorem acc_first (c : Dev nD) (t : Fin cfg1.N) (h : t.val % 4 = 0) :
    acc V c t.val = accStep (xAt V c t) (wAt V c t) accZero := by
  obtain ⟨n, hn⟩ := t
  cases n with
  | zero => show acc V c 0 = _; rw [acc, dif_pos hn]
  | succ n => show acc V c (n + 1) = _; rw [acc, dif_pos hn, if_pos h]

theorem acc_next (c : Dev nD) (t : Fin cfg1.N) (h : ¬ t.val % 4 = 0) :
    acc V c t.val = accStep (xAt V c t) (wAt V c t) (acc V c (t.val - 1)) := by
  obtain ⟨n, hn⟩ := t
  cases n with
  | zero => exact absurd (Nat.zero_mod 4) h
  | succ n => show acc V c (n + 1) = _; rw [acc, dif_pos hn, if_neg h]; rfl

/-! ## The invariant: the scratch at the accumulator, the rest as the class keeps it -/

/-- The scratch operand: a whole buffer of the kernel's own. -/
abbrev scM : Memref sig .tc .vmem S1024x1024 .f32 := Memref.whole cc1_scratch0

/-- What the invariant keeps beside the scratch: the first call's six staging buffers at anything, and the
    generator register at some state. -/
def restOf (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ r, prngReg c r))

/-- The class's invariant is the scratch at anything beside the rest, -/
theorem PhiA_open (c : Dev nD) :
    (Pipeline.ΦA spec1 c : sProp 𝕄) ⊢ iprop((∃ d, owns (c : Thread nD τ) scM fullShare d) ∗ restOf (F := F) c) := by
  unfold Pipeline.ΦA restOf; rw [scopedRest1_eq]; simp only [scM, owns_whole]
  iintro ⟨⟨B1, B2, B3, B4, B5, B6, HS⟩, Hg⟩
  isplitl [HS]; · iexact HS
  isplitl [B1]; · iexact B1
  isplitl [B2]; · iexact B2
  isplitl [B3]; · iexact B3
  isplitl [B4]; · iexact B4
  isplitl [B5]; · iexact B5
  isplitl [B6]; · iexact B6
  iexact Hg

/-- and back. -/
theorem PhiA_close (c : Dev nD) :
    iprop((∃ d, owns (c : Thread nD τ) scM fullShare d) ∗ restOf (F := F) c) ⊢ (Pipeline.ΦA spec1 c : sProp 𝕄) := by
  unfold Pipeline.ΦA restOf; rw [scopedRest1_eq]; simp only [scM, owns_whole]
  iintro ⟨HS, B1, B2, B3, B4, B5, B6, Hg⟩
  isplitr [Hg]
  · isplitl [B1]; · iexact B1
    isplitl [B2]; · iexact B2
    isplitl [B3]; · iexact B3
    isplitl [B4]; · iexact B4
    isplitl [B5]; · iexact B5
    isplitl [B6]; · iexact B6
    iexact HS
  iexact Hg

/-- The invariant before position `n`: the class's before the first point; afterwards the scratch at what the
    point before left. -/
def Phi1 (c : Dev nD) : ℕ → sProp 𝕄
  | 0 => Pipeline.ΦA spec1 c
  | n + 1 => iprop(owns (c : Thread nD τ) scM fullShare (acc V c n) ∗ restOf (F := F) c)

theorem Phi1_succ (c : Dev nD) (n : ℕ) :
    Phi1 V c (n + 1) = iprop(owns (c : Thread nD τ) scM fullShare (acc V c n) ∗ restOf (F := F) c) := rfl

theorem Phi1_pos (c : Dev nD) (n : ℕ) (hn : n ≠ 0) :
    Phi1 V c n = iprop(owns (c : Thread nD τ) scM fullShare (acc V c (n - 1)) ∗ restOf (F := F) c) := by
  cases n with
  | zero => exact absurd rfl hn
  | succ n => rfl

/-- At any position the invariant gives the scratch at SOME contents beside the rest. -/
theorem Phi1_forget (c : Dev nD) (n : ℕ) :
    Phi1 V c n ⊢ iprop((∃ d, owns (c : Thread nD τ) scM fullShare d) ∗ restOf (F := F) c) := by
  cases n with
  | zero => exact PhiA_open c
  | succ n =>
    rw [Phi1_succ]
    iintro ⟨HS, Hr⟩
    isplitl [HS]; · iexists _; iexact HS
    iexact Hr

/-! ## The proof data of the call -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => accSign (acc V c t.val)
  Φ t := Phi1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = accSign (acc V c t.val) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 2000000 in
/-- The body at any point, by the point's `k`: the invariant hands over the scratch (at anything where `k = 0`, at
    what the point before left elsewhere) and takes it back at this point's accumulator; the output window's buffer
    is handed back untouched unless `k = 3`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) from rfl, Phi1_succ, Phi1_castSucc]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  by_cases hF : t.val % 4 = 0
  · have hL : ¬ t.val % 4 = 3 := by omega
    rw [Dat.leavesExact_idle (dat1 V c) 2 t (idle1_2 t hL) (noFlush1_2 t hL), acc_first V c t hF]
    iintro ⟨HΦ, Ho, ⟨%d0, H0⟩, ⟨%d1, H1⟩, ⟨%d2, H2⟩⟩
    ihave HΦ' := (Phi1_forget V c t.val) $$ HΦ
    icases HΦ' with ⟨HS, Hrest⟩
    iapply (sound_first c Set.univ (grid1.coords t) _ _ _ _ _ _ _ _ (xAt V c t) (wAt V c t) _
      ((isFirst_iff t).mpr hF) (fun h => hL ((isLast_iff t).mp h)) ((dat1 V c).before 2 t d2))
    isplitl [H0]; · iexact H0
    isplitl [H1]; · iexact H1
    isplitl [H2]; · iexact H2
    isplitl [HS]; · iexact HS
    iintro ⟨H0, H1, H2, HS⟩
    isplitl [HS Hrest]
    · isplitl [HS]; · iexact HS
      iexact Hrest
    isplitl [Ho]; · iexact Ho
    isplitl [H0]; · iexact H0
    isplitl [H1]; · iexact H1
    iexists d2; iexact H2
  · have hz : t.val ≠ 0 := fun h => hF (by rw [h])
    rw [Phi1_pos V c t.val hz, acc_next V c t hF]
    by_cases hL : t.val % 4 = 3
    · rw [show (dat1 V c).leavesExact 2 t = owns (c : Thread nD τ) (st1_2 t) fullShare ((dat1 V c).after 2 t) from by
          unfold Dat.leavesExact; rw [live1_2 t hL], after1_2, acc_next V c t hF]
      iintro ⟨⟨HS, Hrest⟩, Ho, ⟨%d0, H0⟩, ⟨%d1, H1⟩, ⟨%d2, H2⟩⟩
      iapply (sound_last c Set.univ (grid1.coords t) _ _ _ _ _ _ _ _ (xAt V c t) (wAt V c t) _
        (fun h => hF ((isFirst_iff t).mp h)) ((isLast_iff t).mpr hL) (acc V c (t.val - 1)))
      isplitl [H0]; · iexact H0
      isplitl [H1]; · iexact H1
      isplitl [H2]; · iexists _; iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · rw [Dat.leavesExact_idle (dat1 V c) 2 t (idle1_2 t hL) (noFlush1_2 t hL)]
      iintro ⟨⟨HS, Hrest⟩, Ho, ⟨%d0, H0⟩, ⟨%d1, H1⟩, ⟨%d2, H2⟩⟩
      iapply (sound_mid c Set.univ (grid1.coords t) _ _ _ _ _ _ _ _ (xAt V c t) (wAt V c t) _
        (fun h => hF ((isFirst_iff t).mp h)) (fun h => hL ((isLast_iff t).mp h)) ((dat1 V c).before 2 t d2) (acc V c (t.val - 1)))
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists d2; iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.WholeBits.lean ====
/-
  The whole program: two pallas_calls in a row, nothing between them. The first writes the ternary weight array
  `main_v0` from the two weight arguments; the second reads the first argument and `main_v0` and writes the result
  `main_v1`. The contents of the core's buffers at the two boundaries are named — after the first call `main_v0`
  holds what that call's write-backs leave, after the second `main_v1` does, and every other buffer is as it was —
  and each call is entered from "every unscoped buffer at the boundary's contents" and left at the next boundary's.
  At the end the result array and the three argument arrays are read off the last boundary.
-/
import proofs.«181194_j68719476736056_2_alg».proof.Proof.Gen.Kernel.Launch
import proofs.«181194_j68719476736056_2_alg».proof.Proof.Gen.Kernel.Skeleton
import proofs.«181194_j68719476736056_2_alg».proof.Proof.Gen.Kernel.Points
import Idealize.ShloMosaic.Lib.Pipeline.Value
import proofs.«181194_j68719476736056_2_alg».proof.Proof.SignDiffBits
import proofs.«181194_j68719476736056_2_alg».proof.Proof.AccDataBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev mem0 : Dev nD → Valuation τ sig (Elt F) := fun c b => (s₀ m ρ).mem ((c : Dev nD), b)
abbrev ent0 : (c : Dev nD) → (b : Ref sig .tc) → Buf (Elt F) ((c : Thread nD τ).loc b) := fun c b => mem0 m ρ c b
/-- After the first call: its windows' arrays at what the pipeline leaves, every other buffer as entered. -/
def mem1 (c : Dev nD) : Valuation τ sig (Elt F) :=
  Pipeline.withArrays spec0 c (mem0 m ρ c) fun w => (dat0 (ent0 m ρ) c).arrAt w cfg0.N
theorem mem1_arr (c : Dev nD) (w : Fin cfg0.W) :
    mem1 m ρ c (Proc.devRef .tc (Pipeline.arrRef spec0 w)) = (dat0 (ent0 m ρ) c).arrAt w cfg0.N := by
  unfold mem1; exact Pipeline.withArrays_arr spec0 launch0.win.arr_inj c _ _ w
theorem mem1_of_ne (c : Dev nD) (b : Ref sig .tc) (hb : ∀ w, Pipeline.arrRef spec0 w ≠ b) :
    mem1 m ρ c (Proc.devRef .tc b) = mem0 m ρ c (Proc.devRef .tc b) := by
  unfold mem1; exact Pipeline.withArrays_of_ne spec0 c _ _ b hb
abbrev ent1 : (c : Dev nD) → (b : Ref sig .tc) → Buf (Elt F) ((c : Thread nD τ).loc b) := fun c b => mem1 m ρ c b
theorem hF0 (c : Dev nD) (w : Fin cfg0.W) : (dat0 (ent0 m ρ) c).arrAt w cfg0.N = ent1 m ρ c (Pipeline.arrRef spec0 w) :=
  (mem1_arr m ρ c w).symm
theorem hrest0 (c : Dev nD) : ∀ b, b ∉ Finset.univ.image (Pipeline.arrRef spec0) → ent1 m ρ c b = ent0 m ρ c b :=
  fun b hb => mem1_of_ne m ρ c b fun w e => hb (Finset.mem_image.mpr ⟨w, Finset.mem_univ _, e⟩)

/-- After the second call. -/
def mem2 (c : Dev nD) : Valuation τ sig (Elt F) :=
  Pipeline.withArrays spec1 c (mem1 m ρ c) fun w => (dat1 (ent1 m ρ) c).arrAt w cfg1.N
theorem mem2_arr (c : Dev nD) (w : Fin cfg1.W) :
    mem2 m ρ c (Proc.devRef .tc (Pipeline.arrRef spec1 w)) = (dat1 (ent1 m ρ) c).arrAt w cfg1.N := by
  unfold mem2; exact Pipeline.withArrays_arr spec1 launch1.win.arr_inj c _ _ w
theorem mem2_of_ne (c : Dev nD) (b : Ref sig .tc) (hb : ∀ w, Pipeline.arrRef spec1 w ≠ b) :
    mem2 m ρ c (Proc.devRef .tc b) = mem1 m ρ c (Proc.devRef .tc b) := by
  unfold mem2; exact Pipeline.withArrays_of_ne spec1 c _ _ b hb
abbrev ent2 : (c : Dev nD) → (b : Ref sig .tc) → Buf (Elt F) ((c : Thread nD τ).loc b) := fun c b => mem2 m ρ c b
theorem hF1 (c : Dev nD) (w : Fin cfg1.W) : (dat1 (ent1 m ρ) c).arrAt w cfg1.N = ent2 m ρ c (Pipeline.arrRef spec1 w) :=
  (mem2_arr m ρ c w).symm
theorem hrest1 (c : Dev nD) : ∀ b, b ∉ Finset.univ.image (Pipeline.arrRef spec1) → ent2 m ρ c b = ent1 m ρ c b :=
  fun b hb => mem2_of_ne m ρ c b fun w e => hb (Finset.mem_image.mpr ⟨w, Finset.mem_univ _, e⟩)

/-! ## The arguments end as launched; the result is what the second call's write-backs leave -/

/-- The first argument is the second call's first input window's array, and no array of the first call. -/
theorem mem2_main_arg0 (c : Dev nD) : mem2 m ρ c (Proc.devRef .tc main_arg0) = m ((c : Thread nD τ).loc main_arg0) :=
  calc mem2 m ρ c (Proc.devRef .tc main_arg0)
    _ = mem1 m ρ c (Proc.devRef .tc main_arg0) := (mem2_arr m ρ c 0).trans (((dat1 (ent1 m ρ) c).arrAt_in 0 rfl _).trans (A_eq1 (ent1 m ρ) c 0))
    _ = mem0 m ρ c (Proc.devRef .tc main_arg0) := mem1_of_ne m ρ c main_arg0 (by decide)
    _ = m ((c : Thread nD τ).loc main_arg0) := rfl
/-- The second and third arguments are the first call's input windows' arrays, and no array of the second call. -/
theorem mem2_main_arg1 (c : Dev nD) : mem2 m ρ c (Proc.devRef .tc main_arg1) = m ((c : Thread nD τ).loc main_arg1) :=
  calc mem2 m ρ c (Proc.devRef .tc main_arg1)
    _ = mem1 m ρ c (Proc.devRef .tc main_arg1) := mem2_of_ne m ρ c main_arg1 (by decide)
    _ = mem0 m ρ c (Proc.devRef .tc main_arg1) := (mem1_arr m ρ c 0).trans (((dat0 (ent0 m ρ) c).arrAt_in 0 rfl _).trans (A_eq0 (ent0 m ρ) c 0))
    _ = m ((c : Thread nD τ).loc main_arg1) := rfl
theorem mem2_main_arg2 (c : Dev nD) : mem2 m ρ c (Proc.devRef .tc main_arg2) = m ((c : Thread nD τ).loc main_arg2) :=
  calc mem2 m ρ c (Proc.devRef .tc main_arg2)
    _ = mem1 m ρ c (Proc.devRef .tc main_arg2) := mem2_of_ne m ρ c main_arg2 (by decide)
    _ = mem0 m ρ c (Proc.devRef .tc main_arg2) := (mem1_arr m ρ c 1).trans (((dat0 (ent0 m ρ) c).arrAt_in 1 rfl _).trans (A_eq0 (ent0 m ρ) c 1))
    _ = m ((c : Thread nD τ).loc main_arg2) := rfl
theorem mem2_main_v1 (c : Dev nD) : mem2 m ρ c (Proc.devRef .tc main_v1) = (dat1 (ent1 m ρ) c).arrAt 2 cfg1.N :=
  mem2_arr m ρ c 2
/-- The ternary weight array as the second call finds it: what the first call's write-backs leave. -/
theorem ent1_main_v0 (c : Dev nD) : ent1 m ρ c main_v0 = (dat0 (ent0 m ρ) c).arrAt 2 cfg0.N :=
  mem1_arr m ρ c 2
theorem ent1_main_arg0 (c : Dev nD) : ent1 m ρ c main_arg0 = m ((c : Thread nD τ).loc main_arg0) :=
  (mem1_of_ne m ρ c main_arg0 (by decide)).trans rfl

/-! ## The proof data family and the thread state -/

abbrev admF : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admF p) c
  | ⟨0, _⟩ => fun c => dat0 (ent0 m ρ) c
  | ⟨1, _⟩ => fun c => dat1 (ent1 m ρ) c
abbrev 𝒱n : Variants := Variants.none
abbrev Ln : GSem nD τ sig → Finset Unit := fun _ => ∅
abbrev lvn : GSem nD τ sig → Unit → ℕ := fun _ _ => 0
/-- What rides beside the buffers: the generator register at some state, and the core owing nothing. -/
abbrev Rn (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (mem2 m ρ c) ∗ ∃ r, prngReg c r)

/-! ## The two calls as segments -/

set_option backward.isDefEq.respectTransparency.types false in
def reg0 : Pipeline.RegionSeg (pcfgs (F := F)) admF (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ Ln lvn 0 fun _ _ => rfl
  pre c := iprop(StableHlo.held (c : Thread nD τ) (Pipeline.ucRefs τ sig) (mem0 m ρ c) ∗ Rn c)
  post c := iprop(StableHlo.held (c : Thread nD τ) (Pipeline.ucRefs τ sig) (mem1 m ρ c) ∗ Rn c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (ent0 m ρ c) (ent1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admF (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ Ln lvn 1 fun _ _ => rfl
  pre c := iprop(StableHlo.held (c : Thread nD τ) (Pipeline.ucRefs τ sig) (mem1 m ρ c) ∗ Rn c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Phi1 (ent1 m ρ) c (Fin.last cfg1.N).val from rfl]
    refine ((Phi1_forget (ent1 m ρ) c _).trans (PhiA_close c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (ent1 m ρ c) (ent2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) admF (pdats m ρ) () defs₀ 𝒱n Ln lvn) :=
  [ .region (reg0 m ρ), .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    with the result array at what the second call's write-backs leave and the three arguments as launched. -/
theorem run_main : θ_run defs (onTc (τ := τ) (main (F := F))) ⟨m, fun _ => 0, ρ⟩ (fun r => ∀ c : Dev nD,
      r.2.mem ((c.tc : Thread nD τ).loc main_v1) = mem2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) admF (pdats m ρ) () cellOf_inj emb₁ defs₀ 𝒱n Ln lvn m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ Rn c)) (Tₙ := Tend m ρ)
    (hch := ⟨fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem2 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem2 m ρ c) s')
      isplitl [Hh] <;> iassumption)
    (hQ := fun s h c =>
      ⟨h c _ (mem_uc main_v1 (by decide)),
       (h c _ (mem_uc main_arg0 (by decide))).trans (mem2_main_arg0 m ρ c),
       (h c _ (mem_uc main_arg1 (by decide))).trans (mem2_main_arg1 m ρ c),
       (h c _ (mem_uc main_arg2 (by decide))).trans (mem2_main_arg2 m ρ c)⟩)

/-- The frame: the same run, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Fr

end
-- ==== Proof.SignDiff.lean ====
/-
  The first pallas_call, on its own: a grid of 16 points, point `t` taking rows `256 t … 256 t + 255` of the two
  weight arrays (4096 columns each) and writing the same rows of the ternary weight array. The body reads both
  blocks whole and stores ONE value covering the output block — the difference of the two sign indicators, entry
  by entry. Stated over a parameter `V`: what the core's buffers hold when the call is entered.
-/
import proofs.«181194_j68719476736056_2_alg».proof.Proof.Gen.KernelIdeal.Launch
import proofs.«181194_j68719476736056_2_alg».proof.Proof.Gen.KernelIdeal.Skeleton
import proofs.«181194_j68719476736056_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the three windows -/

/-- Window `w`'s block at point `t`, read off the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point: it is fetched at every
    point, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the output window's buffer -/

/-- The whole 256 × 4096 block as one rectangle. -/
abbrev whole0 : Rect S256x4096 := Rect.unit (s := S256x4096) ![0, 0] S256x4096.size inb_S256x4096_S256x4096_0_0

/-- The output buffer after the body: the one store's value over the two input blocks, as a one-piece canon. -/
def signDiff (p n : Vec F S256x4096 .f32) : Vec F S256x4096 .bf16 :=
  View.canon [⟨whole0, k0_pay1 (View.ld p whole0) (View.ld n whole0)⟩]

/-- The one rectangle covers the block. -/
theorem cover0 (p0 : Vec F S256x4096 .bf16) (y : S256x4096.Idx) :
    ∃ pc ∈ ([⟨whole0, p0⟩] : List (View.Piece (Elt F) S256x4096 .bf16)), y ∈ pc.1.set :=
  View.cover_of_tiled [⟨whole0, p0⟩] S256x4096.size (by rfl) y

/-! ## The body's triple -/

set_option maxHeartbeats 1000000 in
/-- On whole staging buffers, the two inputs at contents `p`, `n` and the output at anything, the body runs to the
    continuation with the inputs as they were and the output at `signDiff p n`. -/
theorem sound_kernel0 (c : Dev nD) (E : Set ℕ) (i : grid0.Coords)
    (arg1 : Memref sig .tc .vmem S256x4096 .f32) (harg1 : arg1.IsWhole) (arg2 : Memref sig .tc .vmem S256x4096 .f32) (harg2 : arg2.IsWhole)
    (arg3 : Memref sig .tc .vmem S256x4096 .bf16) (harg3 : arg3.IsWhole)
    (p n : Vec F S256x4096 .f32) (K : PUnit → sProp 𝕄) :
    iprop(owns (c : Thread nD τ) arg1 fullShare p ∗ owns (c : Thread nD τ) arg2 fullShare n ∗ (∃ d, owns (c : Thread nD τ) arg3 fullShare d)
        ∗ (iprop(owns (c : Thread nD τ) arg1 fullShare p ∗ owns (c : Thread nD τ) arg2 fullShare n ∗ owns (c : Thread nD τ) arg3 fullShare (signDiff p n)) -∗ K ⟨⟩))
      ⊢ wp frame (wpE (defs₀ (F := F)) Variants.none c none) E (cc0__binarize_kernel i arg1 harg1 arg2 harg2 arg3 harg3) K := by
  simp only [cc0__binarize_kernel_eq_skeleton]; unfold cc0__binarize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The proof data of the call -/

/-- After the body at point `t`: each input buffer at its block, the output buffer at `signDiff` of the two
    blocks; nothing is kept between points beyond the buffers no window stages and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => signDiff (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = signDiff (blk0 V c 0 t) (blk0 V c 1 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.AccBody.lean ====
/-
  The second pallas_call's body, on its own: a 4 × 4 × 4 grid whose last axis `k` walks the four 1024-wide
  blocks of the contracted dimension. The body keeps a 1024 × 1024 accumulator in a scratch buffer that lives
  across grid points: where `k = 0` it first clears it; at every point it adds to it, in two stores, the product of
  the point's `x` block with the point's weight block and then the product of the block's rounding residue with
  the same weight block; where `k = 3` it stores the accumulator's positivity indicator into the output window.
  Three control cases meet the grid (`k = 0`; `k = 1, 2`; `k = 3`): one triple each.
-/
import proofs.«181194_j68719476736056_2_alg».proof.Proof.Gen.KernelIdeal.Launch
import proofs.«181194_j68719476736056_2_alg».proof.Proof.Gen.KernelIdeal.Skeleton
import proofs.«181194_j68719476736056_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's four stored values, by what they do to the accumulator -/

/-- The cleared accumulator. -/
abbrev accZero : Vec F S1024x1024 .f32 := k1_pay1 (F := F)
/-- One point's update of the accumulator `s` from the point's `x` block and weight block: the two additions in
    the order the body makes them. -/
abbrev accStep (x : Vec F S1024x1024 .f32) (w : Vec F S1024x1024 .bf16) (s : Vec F S1024x1024 .f32) : Vec F S1024x1024 .f32 :=
  k1_pay4 x w (k1_pay3 x w s)
/-- The positivity indicator of the accumulator. -/
abbrev accSign (s : Vec F S1024x1024 .f32) : Vec F S1024x1024 .f32 := k1_pay5 s

/-! ## The two conditions, decided over the grid -/

/-- `k = 0`, as the body computes it. -/
abbrev isFirst (i : grid1.Coords) : Prop := (Scalar.cmpi .ne (Scalar.extui (Scalar.cmpi .eq (BitVec.ofNat 32 (i 2).val) 0#32)) 0#32) = 1#1
/-- `k = 3`, as the body computes it. -/
abbrev isLast (i : grid1.Coords) : Prop := k1_cond2 i = 1#1

/-- The last axis is the fastest: `k` is the point's number modulo 4. -/
theorem isFirst_iff : ∀ t : Fin cfg1.N, isFirst (grid1.coords t) ↔ t.val % 4 = 0 :=
  (by decide +kernel : ∀ t : Fin grid1.N, isFirst (grid1.coords t) ↔ t.val % 4 = 0)
theorem isLast_iff : ∀ t : Fin cfg1.N, isLast (grid1.coords t) ↔ t.val % 4 = 3 :=
  (by decide +kernel : ∀ t : Fin grid1.N, isLast (grid1.coords t) ↔ t.val % 4 = 3)

/-- The input windows are stored into nowhere and idle nowhere; the output window is live exactly where `k = 3`, and
    elsewhere it is neither stored into nor written back. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, t.val % 4 = 3 → cfg1.idle 2 (grid1.coords t) = false := by decide +kernel
theorem idle1_2 : ∀ t : Fin cfg1.N, ¬ t.val % 4 = 3 → cfg1.idle 2 (grid1.coords t) = true := by decide +kernel
theorem noFlush1_2 : ∀ t : Fin cfg1.N, ¬ t.val % 4 = 3 → (cfg1.win 2).flush t = false := by decide +kernel

/-! ## The whole-buffer rectangle -/

abbrev whole1 : Rect S1024x1024 := Rect.unit (s := S1024x1024) ![0, 0] S1024x1024.size inb_S1024x1024_S1024x1024_0_0
theorem zeros2 : (![0, 0] : Fin 2 → Nat) = fun _ => 0 := by funext a; fin_cases a <;> rfl

/-! ## The body's triples, one per control case -/

set_option maxHeartbeats 4000000 in
/-- `k = 0`: whatever the scratch held, it ends at one update of the cleared accumulator; the output buffer is
    handed back as found. -/
theorem sound_first (c : Dev nD) (E : Set ℕ) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (x : Vec F S1024x1024 .f32) (w : Vec F S1024x1024 .bf16) (K : PUnit → sProp 𝕄)
    (hc0 : isFirst i) (hc1 : ¬ isLast i) (o : Vec F S1024x1024 .f32) :
    iprop(owns (c : Thread nD τ) arg3 fullShare x ∗ owns (c : Thread nD τ) arg4 fullShare w ∗ owns (c : Thread nD τ) arg5 fullShare o ∗ (∃ d, owns (c : Thread nD τ) arg6 fullShare d)
        ∗ (iprop(owns (c : Thread nD τ) arg3 fullShare x ∗ owns (c : Thread nD τ) arg4 fullShare w ∗ owns (c : Thread nD τ) arg5 fullShare o
            ∗ owns (c : Thread nD τ) arg6 fullShare (accStep x w accZero)) -∗ K ⟨⟩))
      ⊢ wp frame (wpE (defs₀ (F := F)) Variants.none c none) E (cc1__btnn_matmul_kernel i arg3 harg3 arg4 harg4 arg5 harg5 arg6 harg6) K := by
  simp only [cc1__btnn_matmul_kernel_eq_skeleton]; unfold cc1__btnn_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero zeros2 inb_S1024x1024_S1024x1024_0_0 y⟩),
    View.canon_cons_unit_zero zeros2]
  simp only [View.readCov_cons_toLoadRect, View.readAt_eq_ld, View.ld_unit_zero (S := S1024x1024) zeros2]

set_option maxHeartbeats 4000000 in
/-- `k = 1, 2`: the scratch goes from `s` to one update of `s`; the output buffer is handed back as found. -/
theorem sound_mid (c : Dev nD) (E : Set ℕ) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (x : Vec F S1024x1024 .f32) (w : Vec F S1024x1024 .bf16) (K : PUnit → sProp 𝕄)
    (hc0 : ¬ isFirst i) (hc1 : ¬ isLast i) (o s : Vec F S1024x1024 .f32) :
    iprop(owns (c : Thread nD τ) arg3 fullShare x ∗ owns (c : Thread nD τ) arg4 fullShare w ∗ owns (c : Thread nD τ) arg5 fullShare o ∗ owns (c : Thread nD τ) arg6 fullShare s
        ∗ (iprop(owns (c : Thread nD τ) arg3 fullShare x ∗ owns (c : Thread nD τ) arg4 fullShare w ∗ owns (c : Thread nD τ) arg5 fullShare o
            ∗ owns (c : Thread nD τ) arg6 fullShare (accStep x w s)) -∗ K ⟨⟩))
      ⊢ wp frame (wpE (defs₀ (F := F)) Variants.none c none) E (cc1__btnn_matmul_kernel i arg3 harg3 arg4 harg4 arg5 harg5 arg6 harg6) K := by
  simp only [cc1__btnn_matmul_kernel_eq_skeleton]; unfold cc1__btnn_matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero zeros2 inb_S1024x1024_S1024x1024_0_0 y⟩),
    View.canon_cons_unit_zero zeros2]
  simp only [View.readCov_cons_toLoadRect, View.readAt_eq_ld, View.ld_unit_zero (S := S1024x1024) zeros2]

set_option maxHeartbeats 4000000 in
/-- `k = 3`: the scratch goes from `s` to one update of `s`, and the output buffer, whatever it held, ends at the
    positivity indicator of the updated accumulator. -/
theorem sound_last (c : Dev nD) (E : Set ℕ) (i : grid1.Coords)
    (arg3 : Memref sig .tc .vmem S1024x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (x : Vec F S1024x1024 .f32) (w : Vec F S1024x1024 .bf16) (K : PUnit → sProp 𝕄)
    (hc0 : ¬ isFirst i) (hc1 : isLast i) (s : Vec F S1024x1024 .f32) :
    iprop(owns (c : Thread nD τ) arg3 fullShare x ∗ owns (c : Thread nD τ) arg4 fullShare w ∗ (∃ d, owns (c : Thread nD τ) arg5 fullShare d) ∗ owns (c : Thread nD τ) arg6 fullShare s
        ∗ (iprop(owns (c : Thread nD τ) arg3 fullShare x ∗ owns (c : Thread nD τ) arg4 fullShare w ∗ owns (c : Thread nD τ) arg5 fullShare (accSign (accStep x w s))
            ∗ owns (c : Thread nD τ) arg6 fullShare (accStep x w s)) -∗ K ⟨⟩))
      ⊢ wp frame (wpE (defs₀ (F := F)) Variants.none c none) E (cc1__btnn_matmul_kernel i arg3 harg3 arg4 harg4 arg5 harg5 arg6 harg6) K := by
  simp only [cc1__btnn_matmul_kernel_eq_skeleton]; unfold cc1__btnn_matmul_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero zeros2 inb_S1024x1024_S1024x1024_0_0 y⟩),
      View.canon_cons_unit_zero zeros2]
    simp only [View.readCov_cons_toLoadRect, View.readAt_eq_ld, View.ld_unit_zero (S := S1024x1024) zeros2]
  iexists _; isplitr
  swap; · iexact H3
  ipureintro
  sl_unfold_run_names
  rw [View.read_writes_eq_canon _ _ _ (fun y => ⟨_, List.mem_cons_self, View.mem_set_unit_zero zeros2 inb_S1024x1024_S1024x1024_0_0 y⟩),
    View.canon_cons_unit_zero zeros2]
  simp only [View.readCov_cons_toLoadRect, View.readAt_eq_ld, View.ld_unit_zero (S := S1024x1024) zeros2]

end Cert.KernelIdeal.Fr

end
-- ==== Proof.AccData.lean ====
/-
  The second pallas_call's accumulator across its grid, and the call's proof data. Grid point `n` has
  `k = n mod 4`; a run of four consecutive points shares one output block, starts from the cleared accumulator and
  folds in one block of the contracted dimension per point. `acc n` is what the scratch holds after point `n`;
  the region's invariant carries the scratch at that value from one point to the next, and the output window's
  buffer, live only at the last point of a run, ends there at the positivity indicator of the accumulator.
-/
import proofs.«181194_j68719476736056_2_alg».proof.Proof.Gen.KernelIdeal.Launch
import proofs.«181194_j68719476736056_2_alg».proof.Proof.Gen.KernelIdeal.Skeleton
import proofs.«181194_j68719476736056_2_alg».proof.Proof.Gen.KernelIdeal.Points
import Idealize.ShloMosaic.Lib.Pipeline.Value
import proofs.«181194_j68719476736056_2_alg».proof.Proof.AccBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the three windows -/

/-- Window `w`'s block at point `t`, read off the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The point's `x` block and weight block as plain 1024 × 1024 values. -/
abbrev xAt (c : Dev nD) (t : Fin cfg1.N) : Vec F S1024x1024 .f32 := blk1 V c 0 t
abbrev wAt (c : Dev nD) (t : Fin cfg1.N) : Vec F S1024x1024 .bf16 := blk1 V c 1 t

/-! ## The accumulator after each point -/

/-- What the scratch holds after point `n`: one update, of the cleared accumulator where `n mod 4 = 0` and of
    what point `n - 1` left elsewhere. -/
def acc (c : Dev nD) : ℕ → Vec F S1024x1024 .f32
  | 0 => if h : 0 < cfg1.N then accStep (xAt V c ⟨0, h⟩) (wAt V c ⟨0, h⟩) accZero else accZero
  | n + 1 => if h : n + 1 < cfg1.N then
      accStep (xAt V c ⟨n + 1, h⟩) (wAt V c ⟨n + 1, h⟩) (if (n + 1) % 4 = 0 then accZero else acc c n)
    else acc c n

theorem acc_first (c : Dev nD) (t : Fin cfg1.N) (h : t.val % 4 = 0) :
    acc V c t.val = accStep (xAt V c t) (wAt V c t) accZero := by
  obtain ⟨n, hn⟩ := t
  cases n with
  | zero => show acc V c 0 = _; rw [acc, dif_pos hn]
  | succ n => show acc V c (n + 1) = _; rw [acc, dif_pos hn, if_pos h]

theorem acc_next (c : Dev nD) (t : Fin cfg1.N) (h : ¬ t.val % 4 = 0) :
    acc V c t.val = accStep (xAt V c t) (wAt V c t) (acc V c (t.val - 1)) := by
  obtain ⟨n, hn⟩ := t
  cases n with
  | zero => exact absurd (Nat.zero_mod 4) h
  | succ n => show acc V c (n + 1) = _; rw [acc, dif_pos hn, if_neg h]; rfl

/-! ## The invariant: the scratch at the accumulator, the rest as the class keeps it -/

/-- The scratch operand: a whole buffer of the kernel's own. -/
abbrev scM : Memref sig .tc .vmem S1024x1024 .f32 := Memref.whole cc1_scratch0

/-- What the invariant keeps beside the scratch: the first call's six staging buffers at anything, and the
    generator register at some state. -/
def restOf (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ r, prngReg c r))

/-- The class's invariant is the scratch at anything beside the rest, -/
theorem PhiA_open (c : Dev nD) :
    (Pipeline.ΦA spec1 c : sProp 𝕄) ⊢ iprop((∃ d, owns (c : Thread nD τ) scM fullShare d) ∗ restOf (F := F) c) := by
  unfold Pipeline.ΦA restOf; rw [scopedRest1_eq]; simp only [scM, owns_whole]
  iintro ⟨⟨B1, B2, B3, B4, B5, B6, HS⟩, Hg⟩
  isplitl [HS]; · iexact HS
  isplitl [B1]; · iexact B1
  isplitl [B2]; · iexact B2
  isplitl [B3]; · iexact B3
  isplitl [B4]; · iexact B4
  isplitl [B5]; · iexact B5
  isplitl [B6]; · iexact B6
  iexact Hg

/-- and back. -/
theorem PhiA_close (c : Dev nD) :
    iprop((∃ d, owns (c : Thread nD τ) scM fullShare d) ∗ restOf (F := F) c) ⊢ (Pipeline.ΦA spec1 c : sProp 𝕄) := by
  unfold Pipeline.ΦA restOf; rw [scopedRest1_eq]; simp only [scM, owns_whole]
  iintro ⟨HS, B1, B2, B3, B4, B5, B6, Hg⟩
  isplitr [Hg]
  · isplitl [B1]; · iexact B1
    isplitl [B2]; · iexact B2
    isplitl [B3]; · iexact B3
    isplitl [B4]; · iexact B4
    isplitl [B5]; · iexact B5
    isplitl [B6]; · iexact B6
    iexact HS
  iexact Hg

/-- The invariant before position `n`: the class's before the first point; afterwards the scratch at what the
    point before left. -/
def Phi1 (c : Dev nD) : ℕ → sProp 𝕄
  | 0 => Pipeline.ΦA spec1 c
  | n + 1 => iprop(owns (c : Thread nD τ) scM fullShare (acc V c n) ∗ restOf (F := F) c)

theorem Phi1_succ (c : Dev nD) (n : ℕ) :
    Phi1 V c (n + 1) = iprop(owns (c : Thread nD τ) scM fullShare (acc V c n) ∗ restOf (F := F) c) := rfl

theorem Phi1_pos (c : Dev nD) (n : ℕ) (hn : n ≠ 0) :
    Phi1 V c n = iprop(owns (c : Thread nD τ) scM fullShare (acc V c (n - 1)) ∗ restOf (F := F) c) := by
  cases n with
  | zero => exact absurd rfl hn
  | succ n => rfl

/-- At any position the invariant gives the scratch at SOME contents beside the rest. -/
theorem Phi1_forget (c : Dev nD) (n : ℕ) :
    Phi1 V c n ⊢ iprop((∃ d, owns (c : Thread nD τ) scM fullShare d) ∗ restOf (F := F) c) := by
  cases n with
  | zero => exact PhiA_open c
  | succ n =>
    rw [Phi1_succ]
    iintro ⟨HS, Hr⟩
    isplitl [HS]; · iexists _; iexact HS
    iexact Hr

/-! ## The proof data of the call -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => accSign (acc V c t.val)
  Φ t := Phi1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = accSign (acc V c t.val) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 2000000 in
/-- The body at any point, by the point's `k`: the invariant hands over the scratch (at anything where `k = 0`, at
    what the point before left elsewhere) and takes it back at this point's accumulator; the output window's buffer
    is handed back untouched unless `k = 3`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) from rfl, Phi1_succ, Phi1_castSucc]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  by_cases hF : t.val % 4 = 0
  · have hL : ¬ t.val % 4 = 3 := by omega
    rw [Dat.leavesExact_idle (dat1 V c) 2 t (idle1_2 t hL) (noFlush1_2 t hL), acc_first V c t hF]
    iintro ⟨HΦ, Ho, ⟨%d0, H0⟩, ⟨%d1, H1⟩, ⟨%d2, H2⟩⟩
    ihave HΦ' := (Phi1_forget V c t.val) $$ HΦ
    icases HΦ' with ⟨HS, Hrest⟩
    iapply (sound_first c Set.univ (grid1.coords t) _ _ _ _ _ _ _ _ (xAt V c t) (wAt V c t) _
      ((isFirst_iff t).mpr hF) (fun h => hL ((isLast_iff t).mp h)) ((dat1 V c).before 2 t d2))
    isplitl [H0]; · iexact H0
    isplitl [H1]; · iexact H1
    isplitl [H2]; · iexact H2
    isplitl [HS]; · iexact HS
    iintro ⟨H0, H1, H2, HS⟩
    isplitl [HS Hrest]
    · isplitl [HS]; · iexact HS
      iexact Hrest
    isplitl [Ho]; · iexact Ho
    isplitl [H0]; · iexact H0
    isplitl [H1]; · iexact H1
    iexists d2; iexact H2
  · have hz : t.val ≠ 0 := fun h => hF (by rw [h])
    rw [Phi1_pos V c t.val hz, acc_next V c t hF]
    by_cases hL : t.val % 4 = 3
    · rw [show (dat1 V c).leavesExact 2 t = owns (c : Thread nD τ) (st1_2 t) fullShare ((dat1 V c).after 2 t) from by
          unfold Dat.leavesExact; rw [live1_2 t hL], after1_2, acc_next V c t hF]
      iintro ⟨⟨HS, Hrest⟩, Ho, ⟨%d0, H0⟩, ⟨%d1, H1⟩, ⟨%d2, H2⟩⟩
      iapply (sound_last c Set.univ (grid1.coords t) _ _ _ _ _ _ _ _ (xAt V c t) (wAt V c t) _
        (fun h => hF ((isFirst_iff t).mp h)) ((isLast_iff t).mpr hL) (acc V c (t.val - 1)))
      isplitl [H0]; · iexact H0
      isplitl [H1]; · iexact H1
      isplitl [H2]; · iexists _; iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · rw [Dat.leavesExact_idle (dat1 V c) 2 t (idle1_2 t hL) (noFlush1_2 t hL)]
      iintro ⟨⟨HS, Hrest⟩, Ho, ⟨%d0, H0⟩, ⟨%d1, H1⟩, ⟨%d2, H2⟩⟩
      iapply (sound_mid c Set.univ (grid1.coords t) _ _ _ _ _ _ _ _ (xAt V c t) (wAt V c t) _
        (fun h => hF ((isFirst_iff t).mp h)) (fun h => hL ((isLast_iff t).mp h)) ((dat1 V c).before 2 t d2) (acc V c (t.val - 1)))
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists d2; iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Whole.lean ====
/-
  The whole program: two pallas_calls in a row, nothing between them. The first writes the ternary weight array
  `main_v0` from the two weight arguments; the second reads the first argument and `main_v0` and writes the result
  `main_v1`. The contents of the core's buffers at the two boundaries are named — after the first call `main_v0`
  holds what that call's write-backs leave, after the second `main_v1` does, and every other buffer is as it was —
  and each call is entered from "every unscoped buffer at the boundary's contents" and left at the next boundary's.
  At the end the result array and the three argument arrays are read off the last boundary.
-/
import proofs.«181194_j68719476736056_2_alg».proof.Proof.Gen.KernelIdeal.Launch
import proofs.«181194_j68719476736056_2_alg».proof.Proof.Gen.KernelIdeal.Skeleton
import proofs.«181194_j68719476736056_2_alg».proof.Proof.Gen.KernelIdeal.Points
import Idealize.ShloMosaic.Lib.Pipeline.Value
import proofs.«181194_j68719476736056_2_alg».proof.Proof.SignDiff
import proofs.«181194_j68719476736056_2_alg».proof.Proof.AccData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev mem0 : Dev nD → Valuation τ sig (Elt F) := fun c b => (s₀ m ρ).mem ((c : Dev nD), b)
abbrev ent0 : (c : Dev nD) → (b : Ref sig .tc) → Buf (Elt F) ((c : Thread nD τ).loc b) := fun c b => mem0 m ρ c b
/-- After the first call: its windows' arrays at what the pipeline leaves, every other buffer as entered. -/
def mem1 (c : Dev nD) : Valuation τ sig (Elt F) :=
  Pipeline.withArrays spec0 c (mem0 m ρ c) fun w => (dat0 (ent0 m ρ) c).arrAt w cfg0.N
theorem mem1_arr (c : Dev nD) (w : Fin cfg0.W) :
    mem1 m ρ c (Proc.devRef .tc (Pipeline.arrRef spec0 w)) = (dat0 (ent0 m ρ) c).arrAt w cfg0.N := by
  unfold mem1; exact Pipeline.withArrays_arr spec0 launch0.win.arr_inj c _ _ w
theorem mem1_of_ne (c : Dev nD) (b : Ref sig .tc) (hb : ∀ w, Pipeline.arrRef spec0 w ≠ b) :
    mem1 m ρ c (Proc.devRef .tc b) = mem0 m ρ c (Proc.devRef .tc b) := by
  unfold mem1; exact Pipeline.withArrays_of_ne spec0 c _ _ b hb
abbrev ent1 : (c : Dev nD) → (b : Ref sig .tc) → Buf (Elt F) ((c : Thread nD τ).loc b) := fun c b => mem1 m ρ c b
theorem hF0 (c : Dev nD) (w : Fin cfg0.W) : (dat0 (ent0 m ρ) c).arrAt w cfg0.N = ent1 m ρ c (Pipeline.arrRef spec0 w) :=
  (mem1_arr m ρ c w).symm
theorem hrest0 (c : Dev nD) : ∀ b, b ∉ Finset.univ.image (Pipeline.arrRef spec0) → ent1 m ρ c b = ent0 m ρ c b :=
  fun b hb => mem1_of_ne m ρ c b fun w e => hb (Finset.mem_image.mpr ⟨w, Finset.mem_univ _, e⟩)

/-- After the second call. -/
def mem2 (c : Dev nD) : Valuation τ sig (Elt F) :=
  Pipeline.withArrays spec1 c (mem1 m ρ c) fun w => (dat1 (ent1 m ρ) c).arrAt w cfg1.N
theorem mem2_arr (c : Dev nD) (w : Fin cfg1.W) :
    mem2 m ρ c (Proc.devRef .tc (Pipeline.arrRef spec1 w)) = (dat1 (ent1 m ρ) c).arrAt w cfg1.N := by
  unfold mem2; exact Pipeline.withArrays_arr spec1 launch1.win.arr_inj c _ _ w
theorem mem2_of_ne (c : Dev nD) (b : Ref sig .tc) (hb : ∀ w, Pipeline.arrRef spec1 w ≠ b) :
    mem2 m ρ c (Proc.devRef .tc b) = mem1 m ρ c (Proc.devRef .tc b) := by
  unfold mem2; exact Pipeline.withArrays_of_ne spec1 c _ _ b hb
abbrev ent2 : (c : Dev nD) → (b : Ref sig .tc) → Buf (Elt F) ((c : Thread nD τ).loc b) := fun c b => mem2 m ρ c b
theorem hF1 (c : Dev nD) (w : Fin cfg1.W) : (dat1 (ent1 m ρ) c).arrAt w cfg1.N = ent2 m ρ c (Pipeline.arrRef spec1 w) :=
  (mem2_arr m ρ c w).symm
theorem hrest1 (c : Dev nD) : ∀ b, b ∉ Finset.univ.image (Pipeline.arrRef spec1) → ent2 m ρ c b = ent1 m ρ c b :=
  fun b hb => mem2_of_ne m ρ c b fun w e => hb (Finset.mem_image.mpr ⟨w, Finset.mem_univ _, e⟩)

/-! ## The arguments end as launched; the result is what the second call's write-backs leave -/

/-- The first argument is the second call's first input window's array, and no array of the first call. -/
theorem mem2_main_arg0 (c : Dev nD) : mem2 m ρ c (Proc.devRef .tc main_arg0) = m ((c : Thread nD τ).loc main_arg0) :=
  calc mem2 m ρ c (Proc.devRef .tc main_arg0)
    _ = mem1 m ρ c (Proc.devRef .tc main_arg0) := (mem2_arr m ρ c 0).trans (((dat1 (ent1 m ρ) c).arrAt_in 0 rfl _).trans (A_eq1 (ent1 m ρ) c 0))
    _ = mem0 m ρ c (Proc.devRef .tc main_arg0) := mem1_of_ne m ρ c main_arg0 (by decide)
    _ = m ((c : Thread nD τ).loc main_arg0) := rfl
/-- The second and third arguments are the first call's input windows' arrays, and no array of the second call. -/
theorem mem2_main_arg1 (c : Dev nD) : mem2 m ρ c (Proc.devRef .tc main_arg1) = m ((c : Thread nD τ).loc main_arg1) :=
  calc mem2 m ρ c (Proc.devRef .tc main_arg1)
    _ = mem1 m ρ c (Proc.devRef .tc main_arg1) := mem2_of_ne m ρ c main_arg1 (by decide)
    _ = mem0 m ρ c (Proc.devRef .tc main_arg1) := (mem1_arr m ρ c 0).trans (((dat0 (ent0 m ρ) c).arrAt_in 0 rfl _).trans (A_eq0 (ent0 m ρ) c 0))
    _ = m ((c : Thread nD τ).loc main_arg1) := rfl
theorem mem2_main_arg2 (c : Dev nD) : mem2 m ρ c (Proc.devRef .tc main_arg2) = m ((c : Thread nD τ).loc main_arg2) :=
  calc mem2 m ρ c (Proc.devRef .tc main_arg2)
    _ = mem1 m ρ c (Proc.devRef .tc main_arg2) := mem2_of_ne m ρ c main_arg2 (by decide)
    _ = mem0 m ρ c (Proc.devRef .tc main_arg2) := (mem1_arr m ρ c 1).trans (((dat0 (ent0 m ρ) c).arrAt_in 1 rfl _).trans (A_eq0 (ent0 m ρ) c 1))
    _ = m ((c : Thread nD τ).loc main_arg2) := rfl
theorem mem2_main_v1 (c : Dev nD) : mem2 m ρ c (Proc.devRef .tc main_v1) = (dat1 (ent1 m ρ) c).arrAt 2 cfg1.N :=
  mem2_arr m ρ c 2
/-- The ternary weight array as the second call finds it: what the first call's write-backs leave. -/
theorem ent1_main_v0 (c : Dev nD) : ent1 m ρ c main_v0 = (dat0 (ent0 m ρ) c).arrAt 2 cfg0.N :=
  mem1_arr m ρ c 2
theorem ent1_main_arg0 (c : Dev nD) : ent1 m ρ c main_arg0 = m ((c : Thread nD τ).loc main_arg0) :=
  (mem1_of_ne m ρ c main_arg0 (by decide)).trans rfl

/-! ## The proof data family and the thread state -/

abbrev admF : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admF p) c
  | ⟨0, _⟩ => fun c => dat0 (ent0 m ρ) c
  | ⟨1, _⟩ => fun c => dat1 (ent1 m ρ) c
abbrev 𝒱n : Variants := Variants.none
abbrev Ln : GSem nD τ sig → Finset Unit := fun _ => ∅
abbrev lvn : GSem nD τ sig → Unit → ℕ := fun _ _ => 0
/-- What rides beside the buffers: the generator register at some state, and the core owing nothing. -/
abbrev Rn (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (mem2 m ρ c) ∗ ∃ r, prngReg c r)

/-! ## The two calls as segments -/

set_option backward.isDefEq.respectTransparency.types false in
def reg0 : Pipeline.RegionSeg (pcfgs (F := F)) admF (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ Ln lvn 0 fun _ _ => rfl
  pre c := iprop(StableHlo.held (c : Thread nD τ) (Pipeline.ucRefs τ sig) (mem0 m ρ c) ∗ Rn c)
  post c := iprop(StableHlo.held (c : Thread nD τ) (Pipeline.ucRefs τ sig) (mem1 m ρ c) ∗ Rn c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (ent0 m ρ c) (ent1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admF (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ Ln lvn 1 fun _ _ => rfl
  pre c := iprop(StableHlo.held (c : Thread nD τ) (Pipeline.ucRefs τ sig) (mem1 m ρ c) ∗ Rn c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Phi1 (ent1 m ρ) c (Fin.last cfg1.N).val from rfl]
    refine ((Phi1_forget (ent1 m ρ) c _).trans (PhiA_close c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (ent1 m ρ c) (ent2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) admF (pdats m ρ) () defs₀ 𝒱n Ln lvn) :=
  [ .region (reg0 m ρ), .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    with the result array at what the second call's write-backs leave and the three arguments as launched. -/
theorem run_main : θ_run defs (onTc (τ := τ) (main (F := F))) ⟨m, fun _ => 0, ρ⟩ (fun r => ∀ c : Dev nD,
      r.2.mem ((c.tc : Thread nD τ).loc main_v1) = mem2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) admF (pdats m ρ) () cellOf_inj emb₁ defs₀ 𝒱n Ln lvn m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ Rn c)) (Tₙ := Tend m ρ)
    (hch := ⟨fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem2 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem2 m ρ c) s')
      isplitl [Hh] <;> iassumption)
    (hQ := fun s h c =>
      ⟨h c _ (mem_uc main_v1 (by decide)),
       (h c _ (mem_uc main_arg0 (by decide))).trans (mem2_main_arg0 m ρ c),
       (h c _ (mem_uc main_arg1 (by decide))).trans (mem2_main_arg1 m ρ c),
       (h c _ (mem_uc main_arg2 (by decide))).trans (mem2_main_arg2 m ρ c)⟩)

/-- The frame: the same run, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Fr

end
-- ==== Proof.Spec.lean ====
/-
  The function both programs compute, and the arithmetic that joins them. For argument arrays `x`, `p`, `n` of
  4096 × 4096 extended reals: the ternary weight `T = [p > 0] − [n > 0]`, the row products `y(t, o) = Σ_e x(t, e) · T(o, e)`
  over the 4096 entries of a row, and the result `[y(t, o) > 0]`. The kernel reaches `y` as four partial sums over
  1024-entry blocks of `e`, each followed by the same sum with `x − x` in place of `x`; for REAL `x` that second sum is
  zero. The reference writes each indicator `q` as `q + a − a`, which is `q` for REAL `a`. Entries are read by natural
  coordinates (zero outside the array), so that block offsets are plain arithmetic.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Sq : Shape := ⟨2, ![4096, 4096]⟩

/-! ## The indicator and the reals -/

/-- The positivity indicator. -/
def pos (a : EReal) : EReal := if 0 < a then 1 else 0

def IsReal (a : EReal) : Prop := ∃ r : ℝ, a = (r : EReal)

theorem pos_real (a : EReal) : IsReal (pos a) := by
  unfold pos; split
  · exact ⟨1, by simp⟩
  · exact ⟨0, by simp⟩

theorem IsReal.sub {a b : EReal} (ha : IsReal a) (hb : IsReal b) : IsReal (a - b) := by
  obtain ⟨r, rfl⟩ := ha; obtain ⟨s, rfl⟩ := hb; exact ⟨r - s, by simp⟩

theorem IsReal.mul {a b : EReal} (ha : IsReal a) (hb : IsReal b) : IsReal (a * b) := by
  obtain ⟨r, rfl⟩ := ha; obtain ⟨s, rfl⟩ := hb; exact ⟨r * s, by simp⟩

theorem IsReal.add {a b : EReal} (ha : IsReal a) (hb : IsReal b) : IsReal (a + b) := by
  obtain ⟨r, rfl⟩ := ha; obtain ⟨s, rfl⟩ := hb; exact ⟨r + s, by simp⟩

theorem isReal_zero : IsReal 0 := ⟨0, by simp⟩

theorem IsReal.sum {ι : Type} (s : Finset ι) (f : ι → EReal) (h : ∀ k ∈ s, IsReal (f k)) : IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

/-- An indicator written as `q + a − a` is `q`, for real `q` and `a`. -/
theorem add_sub_self {q a : EReal} (hq : IsReal q) (ha : IsReal a) : q + a - a = q := by
  obtain ⟨r, rfl⟩ := hq; obtain ⟨s, rfl⟩ := ha
  rw [← EReal.coe_add, ← EReal.coe_sub]; congr 1; ring

/-- A real minus itself is zero, -/
theorem sub_self_real {a : EReal} (ha : IsReal a) : a - a = 0 := by
  obtain ⟨r, rfl⟩ := ha
  rw [← EReal.coe_sub, sub_self, EReal.coe_zero]

/-- so the sum with `x − x` in place of `x` adds nothing. -/
theorem residue_sum_zero {ι : Type} (s : Finset ι) (x w : ι → EReal) (hx : ∀ k ∈ s, IsReal (x k)) :
    ∑ k ∈ s, (x k - x k) * w k = 0 :=
  Finset.sum_eq_zero fun k hk => by rw [sub_self_real (hx k hk), zero_mul]

/-- The comparison word with zero, read unsigned, is the indicator; -/
theorem uitofp_gt_zero (a : EReal) : (((Ideal.cmp .ogt a 0).toNat : ℝ) : EReal) = pos a := by
  unfold Ideal.cmp pos
  by_cases h : (0 : EReal) < a <;> simp [h]

/-- widened to 32 bits and read signed, too. -/
theorem sitofp_ext_gt_zero (a : EReal) : ((((Ideal.cmp .ogt a 0).setWidth 32).toInt : ℝ) : EReal) = pos a := by
  unfold Ideal.cmp pos
  by_cases h : (0 : EReal) < a <;> simp [h]

/-! ## Entries by natural coordinates -/

/-- Entry `(a, b)` of a 4096 × 4096 array, zero outside it. -/
def at2 (X : Sq.Idx → EReal) (a b : ℕ) : EReal :=
  if h : a < 4096 ∧ b < 4096 then X (ix2 ⟨a, h.1⟩ ⟨b, h.2⟩) else 0

theorem at2_of_lt (X : Sq.Idx → EReal) {a b : ℕ} (ha : a < 4096) (hb : b < 4096) :
    at2 X a b = X (ix2 ⟨a, ha⟩ ⟨b, hb⟩) := by
  unfold at2; rw [dif_pos ⟨ha, hb⟩]

theorem at2_idx (X : Sq.Idx → EReal) (i : Sq.Idx) : at2 X (i 0).val (i 1).val = X i := by
  rw [at2_of_lt X (i 0).isLt (i 1).isLt]; exact congrArg X (eq_ix2 i).symm

theorem at2_real (X : Sq.Idx → EReal) (hX : ∀ i, IsReal (X i)) (a b : ℕ) : IsReal (at2 X a b) := by
  unfold at2; split
  · exact hX _
  · exact isReal_zero

/-! ## The function -/

/-- The ternary weight. -/
def tern (p n : Sq.Idx → EReal) : Sq.Idx → EReal := fun i => pos (p i) - pos (n i)

theorem tern_real (p n : Sq.Idx → EReal) (i : Sq.Idx) : IsReal (tern p n i) := (pos_real _).sub (pos_real _)

/-- Row `I` of `X` against row `J` of `W`, over all 4096 entries; -/
def dotRows (X W : Sq.Idx → EReal) (I J : ℕ) : EReal :=
  ∑ e ∈ Finset.range 4096, at2 X I e * at2 W J e

/-- and over the first `n` blocks of 1024 entries. -/
def dotBlocks (X W : Sq.Idx → EReal) (I J n : ℕ) : EReal :=
  ∑ k ∈ Finset.range n, ∑ d ∈ Finset.range 1024, at2 X I (1024 * k + d) * at2 W J (1024 * k + d)

theorem dotBlocks_succ (X W : Sq.Idx → EReal) (I J n : ℕ) :
    dotBlocks X W I J (n + 1) = dotBlocks X W I J n + ∑ d ∈ Finset.range 1024, at2 X I (1024 * n + d) * at2 W J (1024 * n + d) := by
  unfold dotBlocks; rw [Finset.sum_range_succ]

theorem dotBlocks_zero (X W : Sq.Idx → EReal) (I J : ℕ) : dotBlocks X W I J 0 = 0 := by
  unfold dotBlocks; rw [Finset.sum_range_zero]

/-- Four blocks are the whole row. -/
theorem dotBlocks_four (X W : Sq.Idx → EReal) (I J : ℕ) : dotBlocks X W I J 4 = dotRows X W I J := by
  have h4096 : Finset.range 4096 = Finset.range (1024 + (1024 + (1024 + 1024))) := rfl
  rw [show (4 : ℕ) = 0 + 1 + 1 + 1 + 1 from rfl, dotBlocks_succ, dotBlocks_succ, dotBlocks_succ, dotBlocks_succ, dotBlocks_zero, zero_add]
  unfold dotRows
  rw [h4096, Finset.sum_range_add, Finset.sum_range_add, Finset.sum_range_add, add_assoc, add_assoc]
  refine congrArg₂ (· + ·) (Finset.sum_congr rfl fun d _ => by rw [show 1024 * 0 + d = d from by omega]) ?_
  refine congrArg₂ (· + ·) (Finset.sum_congr rfl fun d _ => by rw [show 1024 * (0 + 1) + d = 1024 + d from by omega]) ?_
  refine congrArg₂ (· + ·) (Finset.sum_congr rfl fun d _ => by rw [show 1024 * (0 + 1 + 1) + d = 1024 + (1024 + d) from by omega]) ?_
  exact Finset.sum_congr rfl fun d _ => by rw [show 1024 * (0 + 1 + 1 + 1) + d = 1024 + (1024 + (1024 + d)) from by omega]

theorem dotRows_real (X W : Sq.Idx → EReal) (hX : ∀ i, IsReal (X i)) (hW : ∀ i, IsReal (W i)) (I J : ℕ) :
    IsReal (dotRows X W I J) :=
  IsReal.sum _ _ fun e _ => (at2_real X hX I e).mul (at2_real W hW J e)

/-- The result: the indicator of the row product against the ternary weight. -/
def G (x p n : Sq.Idx → EReal) : Sq.Idx → EReal :=
  fun i => pos (dotRows x (tern p n) (i 0).val (i 1).val)

end Cert.Spec

end
-- ==== Proof.SignDiffValue.lean ====
/-
  What the first pallas_call leaves in the ternary weight array, at `Ideal`: entry by entry the difference of the
  positivity indicators of the two weight arguments. Point `t` of the 16 writes rows `256 t … 256 t + 255`, all 4096
  columns; every row is in exactly one such block, so the blocks cover the array.
-/
import proofs.«181194_j68719476736056_2_alg».proof.Proof.Gen.KernelIdeal.Launch
import proofs.«181194_j68719476736056_2_alg».proof.Proof.Gen.KernelIdeal.Skeleton
import proofs.«181194_j68719476736056_2_alg».proof.Proof.Gen.KernelIdeal.Points
import Idealize.ShloMosaic.Lib.Pipeline.Value
import proofs.«181194_j68719476736056_2_alg».proof.Proof.SignDiff
import proofs.«181194_j68719476736056_2_alg».proof.Proof.Spec
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec Idealize.ShloMosaic.ValueIdx

variable (V : (c : Dev nD) → (b : Ref sig .tc) → Buf (Elt Ideal) ((c : Thread nD τ).loc b))

theorem zeros2' : (![0, 0] : Fin 2 → Nat) = fun _ => 0 := funext fun a => by fin_cases a <;> rfl

/-- The body's stored value at an entry: the indicator of the first block's entry minus that of the second's (the
    rounding to bf16 is the identity at `Ideal`). -/
theorem signDiff_pay (p n : Vec Ideal S256x4096 .f32) (j : S256x4096.Idx) :
    k0_pay1 p n j = pos (p j) - pos (n j) := by
  show ((((Ideal.cmp .ogt (p j) (Ideal.ofBits .f32 0x00000000#32)).setWidth 32).toInt : ℝ) : EReal)
      - ((((Ideal.cmp .ogt (n j) (Ideal.ofBits .f32 0x00000000#32)).setWidth 32).toInt : ℝ) : EReal) = _
  rw [Ideal.ofBits_zero_f32, sitofp_ext_gt_zero, sitofp_ext_gt_zero]

/-- The three index maps: block row `t`, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the ternary weight of the two arguments as the call finds them. -/
theorem flushed0_eq (c : Dev nD) (t : Fin cfg0.N) :
    (dat0 V c).flushed 2 t = ((cfg0.win 2).blk t).view.read (Elt Ideal) (tern (V c main_arg1) (V c main_arg2)) := by
  show (cfg0.win 2).cut (grid0.coords t) ((dat0 V c).after 2 t) = _
  rw [after0_2]
  unfold signDiff
  rw [View.canon_unit_zero zeros2']
  simp only [View.ld_unit_zero (S := S256x4096) zeros2']
  obtain ⟨e0, e1, e2, e3, e4, e5⟩ := idx0 t
  funext j
  show k0_pay1 (blk0 V c 0 t) (blk0 V c 1 t) j = tern (V c main_arg1) (V c main_arg2) (((cfg0.win 2).blk t).view.emb j)
  rw [signDiff_pay]
  show pos (V c main_arg1 (((cfg0.win 0).blk t).view.emb j)) - pos (V c main_arg2 (((cfg0.win 1).blk t).view.emb j))
    = pos (V c main_arg1 (((cfg0.win 2).blk t).view.emb j)) - pos (V c main_arg2 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-- An entry of the array is in point `t`'s block iff each coordinate is in the block's range. -/
theorem mem_blk0 (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Row `r` is in the block of point `r / 256`. -/
theorem cover0v (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 16 := N_0
  let t : Fin cfg0.N := ⟨(i 0).val / 256, by rw [hN]; omega⟩
  obtain ⟨e0, e1, e2, e3, e4, e5⟩ := idx0 t
  have ht : t.val = (i 0).val / 256 := rfl
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The array after the call. -/
theorem final0 (c : Dev nD) : (dat0 V c).arrAt 2 cfg0.N = tern (V c main_arg1) (V c main_arg2) :=
  (dat0 V c).arrAt_eq_of_cover 2 _ (fun t _ => flushed0_eq V c t) cover0v

end Cert.KernelIdeal.Fr

end
-- ==== Proof.AccValue.lean ====
/-
  What the second pallas_call leaves in the result array, at `Ideal`, when the `x` argument holds reals. One update of
  the accumulator adds, entry `(r, q)`, the product of row `r` of the point's `x` block with row `q` of its weight block
  (1024 terms) and then the same with `x − x` for `x`, which is zero for real `x`. Point `n` has block row `n / 16`, block
  column `(n / 4) mod 4` and contraction block `n mod 4`, so after point `n` the accumulator holds the row product over
  the first `n mod 4 + 1` blocks; where `n mod 4 = 3` that is the whole row, and its indicator is written back to
  block `(n / 16, (n / 4) mod 4)`. These sixteen blocks cover the array.
-/
import proofs.«181194_j68719476736056_2_alg».proof.Proof.Gen.KernelIdeal.Launch
import proofs.«181194_j68719476736056_2_alg».proof.Proof.Gen.KernelIdeal.Skeleton
import proofs.«181194_j68719476736056_2_alg».proof.Proof.Gen.KernelIdeal.Points
import Idealize.ShloMosaic.Lib.Pipeline.Value
import proofs.«181194_j68719476736056_2_alg».proof.Proof.AccData
import proofs.«181194_j68719476736056_2_alg».proof.Proof.Spec
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec Idealize.ShloMosaic.ValueIdx

variable (V : (c : Dev nD) → (b : Ref sig .tc) → Buf (Elt Ideal) ((c : Thread nD τ).loc b))

/-! ## The stored values at an entry -/

theorem accZero_apply (j : S1024x1024.Idx) : accZero (F := Ideal) j = 0 := by
  show (shapeCast S1024x1024 (broadcast S1024x1024 (Scalar.ofBits (F := Ideal) .f32 0x00000000#32)) shapeCasts_S1024x1024_S1024x1024) j = 0
  rw [shapeCast_self]
  exact Ideal.ofBits_zero_f32

theorem accSign_apply (s : Vec Ideal S1024x1024 .f32) (j : S1024x1024.Idx) : accSign s j = pos (s j) := by
  show ((((Ideal.cmp .ogt (s j) (Ideal.ofBits .f32 0x00000000#32)).setWidth 32).toInt : ℝ) : EReal) = _
  rw [Ideal.ofBits_zero_f32, sitofp_ext_gt_zero]

/-- The dot's operand indices: output row and the contraction index on the left, output column and the contraction
    index on the right. -/
theorem lhs_0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matrix product into a zero accumulator, at an entry: row `j 0` of the left against row `j 1` of the right. -/
theorem mm_apply {φ₁ φ₂ : FTy} (l : FVec Ideal S1024x1024 φ₁) (r : FVec Ideal S1024x1024 φ₂) (j : S1024x1024.Idx) :
    matmul dot_S1024x1024_S1024x1024_S1024x1024_1_1_0_0_n_n none l r (constant S1024x1024 .f32 0x00000000#32) j = ∑ d : Fin 1024, l (ix2 (j 0) d) * r (ix2 (j 1) d) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx j ((contrEquiv1 dot_S1024x1024_S1024x1024_S1024x1024_1_1_0_0_n_n 1024 rfl rfl).symm k) = ix2 (j 0) k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx j ((contrEquiv1 dot_S1024x1024_S1024x1024_S1024x1024_1_1_0_0_n_n 1024 rfl rfl).symm k) = ix2 (j 1) k := funext fun a => Fin.ext (by
    match a with
    | ⟨0, _⟩ => exact rhs_0 _ _
    | ⟨1, _⟩ => exact (rhs_1 _ _).trans hk)
  exact congrArg₂ (· * ·) (congrArg l el) (congrArg r er)

/-- One update of the accumulator at an entry, for a real `x` block: the row product is added, the residue's is zero. -/
theorem accStep_apply (x : Vec Ideal S1024x1024 .f32) (w : Vec Ideal S1024x1024 .bf16) (s : Vec Ideal S1024x1024 .f32)
    (hx : ∀ y, IsReal (x y)) (j : S1024x1024.Idx) :
    accStep x w s j = s j + ∑ d : Fin 1024, x (ix2 (j 0) d) * w (ix2 (j 1) d) := by
  have hi : ∀ s' : Vec Ideal S1024x1024 .f32, k1_pay3 x w s' j = s' j + ∑ d : Fin 1024, x (ix2 (j 0) d) * w (ix2 (j 1) d) := by
    intro s'
    show (shapeCast S1024x1024 (addf s' (matmul dot_S1024x1024_S1024x1024_S1024x1024_1_1_0_0_n_n none (truncf .bf16 x bitsLt_bf16_f32)
      (k1_pay2 w) (constant S1024x1024 .f32 0x00000000#32))) shapeCasts_S1024x1024_S1024x1024) j = _
    rw [shapeCast_self, show k1_pay2 w = w from shapeCast_self _ _, addf_apply, mm_apply]
    rfl
  have lo : ∀ s' : Vec Ideal S1024x1024 .f32, k1_pay4 x w s' j = s' j + ∑ d : Fin 1024, (x (ix2 (j 0) d) - x (ix2 (j 0) d)) * w (ix2 (j 1) d) := by
    intro s'
    show (shapeCast S1024x1024 (addf s' (matmul dot_S1024x1024_S1024x1024_S1024x1024_1_1_0_0_n_n none (truncf .bf16 (subf x x) bitsLt_bf16_f32)
      (k1_pay2 w) (constant S1024x1024 .f32 0x00000000#32))) shapeCasts_S1024x1024_S1024x1024) j = _
    rw [shapeCast_self, show k1_pay2 w = w from shapeCast_self _ _, addf_apply, mm_apply]
    rfl
  show k1_pay4 x w (k1_pay3 x w s) j = _
  rw [lo, hi, residue_sum_zero Finset.univ (fun d : Fin 1024 => x (ix2 (j 0) d)) (fun d => w (ix2 (j 1) d)) (fun d _ => hx _), add_zero]

/-! ## The blocks the body reads, by natural coordinates -/

/-- The index maps: the `x` window at block `(n / 16, n mod 4)`, the weight window at `((n / 4) mod 4, n mod 4)`, the
    result window at `(n / 16, (n / 4) mod 4)`. -/
theorem idx1 : ∀ t : Fin cfg1.N, win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N, _)

theorem xAt_eq (c : Dev nD) (t : Fin cfg1.N) (y : S1024x1024.Idx) :
    xAt V c t y = at2 (V c main_arg0) (1024 * (t.val / 16) + (y 0).val) (1024 * (t.val % 4) + (y 1).val) := by
  obtain ⟨e0, e1, e2, e3, e4, e5⟩ := idx1 t
  have hy0 : (y 0).val < 1024 := (y 0).isLt
  have hy1 : (y 1).val < 1024 := (y 1).isLt
  have hN : t.val < 64 := lt_of_lt_of_eq t.isLt N_1
  rw [at2_of_lt _ (by omega) (by omega)]
  show V c main_arg0 (((cfg1.win 0).blk t).view.emb y) = _
  refine congrArg _ (funext fun a => Fin.ext ?_)
  match a with
  | ⟨0, _⟩ => show win1_0.index t (0 : Fin 2) * 1024 + 1 * (y 0).val = 1024 * (t.val / 16) + (y 0).val; omega
  | ⟨1, _⟩ => show win1_0.index t (1 : Fin 2) * 1024 + 1 * (y 1).val = 1024 * (t.val % 4) + (y 1).val; omega

theorem wAt_eq (c : Dev nD) (t : Fin cfg1.N) (y : S1024x1024.Idx) :
    wAt V c t y = at2 (V c main_v0) (1024 * (t.val / 4 % 4) + (y 0).val) (1024 * (t.val % 4) + (y 1).val) := by
  obtain ⟨e0, e1, e2, e3, e4, e5⟩ := idx1 t
  have hy0 : (y 0).val < 1024 := (y 0).isLt
  have hy1 : (y 1).val < 1024 := (y 1).isLt
  have hN : t.val < 64 := lt_of_lt_of_eq t.isLt N_1
  rw [at2_of_lt _ (by omega) (by omega)]
  show V c main_v0 (((cfg1.win 1).blk t).view.emb y) = _
  refine congrArg _ (funext fun a => Fin.ext ?_)
  match a with
  | ⟨0, _⟩ => show win1_1.index t (0 : Fin 2) * 1024 + 1 * (y 0).val = 1024 * (t.val / 4 % 4) + (y 0).val; omega
  | ⟨1, _⟩ => show win1_1.index t (1 : Fin 2) * 1024 + 1 * (y 1).val = 1024 * (t.val % 4) + (y 1).val; omega

/-- The point's row product, as a block of the whole rows'. -/
theorem blockSum_eq (c : Dev nD) (t : Fin cfg1.N) (j : S1024x1024.Idx) :
    ∑ d : Fin 1024, xAt V c t (ix2 (j 0) d) * wAt V c t (ix2 (j 1) d)
      = ∑ d ∈ Finset.range 1024, at2 (V c main_arg0) (1024 * (t.val / 16) + (j 0).val) (1024 * (t.val % 4) + d)
          * at2 (V c main_v0) (1024 * (t.val / 4 % 4) + (j 1).val) (1024 * (t.val % 4) + d) := by
  rw [Finset.sum_range]
  refine Finset.sum_congr rfl fun d _ => ?_
  rw [xAt_eq, wAt_eq]

/-! ## The accumulator is the row product over the blocks so far -/

theorem acc_eq (c : Dev nD) (hX : ∀ i, IsReal (V c main_arg0 i)) :
    ∀ (n : ℕ) (hn : n < cfg1.N) (j : S1024x1024.Idx),
      acc V c n j = dotBlocks (V c main_arg0) (V c main_v0) (1024 * (n / 16) + (j 0).val) (1024 * (n / 4 % 4) + (j 1).val) (n % 4 + 1) := by
  have hxr : ∀ (t : Fin cfg1.N) (y : S1024x1024.Idx), IsReal (xAt V c t y) := fun t y => by
    rw [xAt_eq]; exact at2_real _ hX _ _
  intro n
  induction n with
  | zero =>
    intro hn j
    have h := acc_first V c ⟨0, hn⟩ rfl
    change acc V c 0 = _ at h
    rw [h, accStep_apply _ _ _ (hxr ⟨0, hn⟩) j, accZero_apply, zero_add, blockSum_eq V c ⟨0, hn⟩ j]
    show (∑ d ∈ Finset.range 1024, at2 (V c main_arg0) (1024 * (0 / 16) + (j 0).val) (1024 * 0 + d)
        * at2 (V c main_v0) (1024 * (0 / 4 % 4) + (j 1).val) (1024 * 0 + d)) = dotBlocks _ _ _ _ (0 + 1)
    rw [dotBlocks_succ, dotBlocks_zero, zero_add]
  | succ n ih =>
    intro hn j
    by_cases h0 : (n + 1) % 4 = 0
    · have h := acc_first V c ⟨n + 1, hn⟩ h0
      change acc V c (n + 1) = _ at h
      rw [h, accStep_apply _ _ _ (hxr ⟨n + 1, hn⟩) j, accZero_apply, zero_add, blockSum_eq V c ⟨n + 1, hn⟩ j]
      show (∑ d ∈ Finset.range 1024, at2 (V c main_arg0) (1024 * ((n + 1) / 16) + (j 0).val) (1024 * ((n + 1) % 4) + d)
          * at2 (V c main_v0) (1024 * ((n + 1) / 4 % 4) + (j 1).val) (1024 * ((n + 1) % 4) + d)) = _
      rw [h0, dotBlocks_succ, dotBlocks_zero, zero_add]
    · have h := acc_next V c ⟨n + 1, hn⟩ h0
      change acc V c (n + 1) = accStep _ _ (acc V c n) at h
      rw [h, accStep_apply _ _ _ (hxr ⟨n + 1, hn⟩) j, blockSum_eq V c ⟨n + 1, hn⟩ j, ih (by omega) j]
      show dotBlocks _ _ _ _ _ + (∑ d ∈ Finset.range 1024, at2 (V c main_arg0) (1024 * ((n + 1) / 16) + (j 0).val) (1024 * ((n + 1) % 4) + d)
          * at2 (V c main_v0) (1024 * ((n + 1) / 4 % 4) + (j 1).val) (1024 * ((n + 1) % 4) + d)) = _
      have e1 : n / 16 = (n + 1) / 16 := by omega
      have e2 : n / 4 % 4 = (n + 1) / 4 % 4 := by omega
      have e3 : n % 4 + 1 = (n + 1) % 4 := by omega
      rw [e1, e2, e3, dotBlocks_succ]

/-! ## From the blocks to the array -/

/-- What a point with `n mod 4 = 3` writes back is its block of `G`, given that the weight array is the ternary weight. -/
theorem flushed1_eq (c : Dev nD) (p n : Sq.Idx → EReal) (hX : ∀ i, IsReal (V c main_arg0 i)) (hW : V c main_v0 = tern p n)
    (t : Fin cfg1.N) (ht : t.val % 4 = 3) :
    (dat1 V c).flushed 2 t = ((cfg1.win 2).blk t).view.read (Elt Ideal) (G (V c main_arg0) p n) := by
  show (cfg1.win 2).cut (grid1.coords t) ((dat1 V c).after 2 t) = _
  rw [after1_2]
  obtain ⟨e0, e1, e2, e3, e4, e5⟩ := idx1 t
  funext j
  show accSign (acc V c t.val) j = G (V c main_arg0) p n (((cfg1.win 2).blk t).view.emb j)
  rw [accSign_apply, acc_eq V c hX t.val t.isLt j, ht, dotBlocks_four, hW]
  unfold G
  have r0 : ((((cfg1.win 2).blk t).view.emb j) 0).val = 1024 * (t.val / 16) + (j 0).val := by
    show win1_2.index t (0 : Fin 2) * 1024 + 1 * (j 0).val = _; omega
  have r1 : ((((cfg1.win 2).blk t).view.emb j) 1).val = 1024 * (t.val / 4 % 4) + (j 1).val := by
    show win1_2.index t (1 : Fin 2) * 1024 + 1 * (j 1).val = _; omega
  rw [r0, r1]

theorem mem_blk1 (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- Entry `(a, b)` is in the block written back at point `16 (a / 1024) + 4 (b / 1024) + 3`. -/
theorem cover1v (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  have hN : cfg1.N = 64 := N_1
  let t : Fin cfg1.N := ⟨16 * ((i 0).val / 1024) + 4 * ((i 1).val / 1024) + 3, by rw [hN]; omega⟩
  obtain ⟨e0, e1, e2, e3, e4, e5⟩ := idx1 t
  have ht : t.val = 16 * ((i 0).val / 1024) + 4 * ((i 1).val / 1024) + 3 := rfl
  refine ⟨t, (flush1_2 t).mpr (by omega), ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The result array after the call. -/
theorem final1 (c : Dev nD) (p n : Sq.Idx → EReal) (hX : ∀ i, IsReal (V c main_arg0 i)) (hW : V c main_v0 = tern p n) :
    (dat1 V c).arrAt 2 cfg1.N = G (V c main_arg0) p n :=
  (dat1 V c).arrAt_eq_of_cover 2 _ (fun t hf => flushed1_eq V c p n hX hW t ((flush1_2 t).mp hf)) cover1v

end Cert.KernelIdeal.Fr

end
-- ==== Proof.Bridge.lean ====
/-
  The idealized kernel's result array is `G` of its three arguments, when the first holds reals: the first call
  leaves the ternary weight of the second and third arguments in `main_v0` and touches nothing else; the second call
  finds the first argument as launched and `main_v0` as the first call left it, and leaves `G` in `main_v1`.
-/
import proofs.«181194_j68719476736056_2_alg».proof.Proof.Gen.KernelIdeal.Launch
import proofs.«181194_j68719476736056_2_alg».proof.Proof.Gen.KernelIdeal.Skeleton
import proofs.«181194_j68719476736056_2_alg».proof.Proof.Gen.KernelIdeal.Points
import Idealize.ShloMosaic.Lib.Pipeline.Value
import proofs.«181194_j68719476736056_2_alg».proof.Proof.Whole
import proofs.«181194_j68719476736056_2_alg».proof.Proof.SignDiffValue
import proofs.«181194_j68719476736056_2_alg».proof.Proof.AccValue
import proofs.«181194_j68719476736056_2_alg».proof.Proof.Spec
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec Idealize.ShloMosaic.ValueIdx

variable (m : (ℓ : Loc nD τ sig) → Buf (Elt Ideal) ℓ) (ρ : Dev nD → PrngReg)

theorem result_is_G (c : Dev nD) (hx : ∀ i, IsReal (m ((c : Thread nD τ).loc main_arg0) i)) :
    mem2 m ρ c (Proc.devRef .tc main_v1)
      = G (m ((c : Thread nD τ).loc main_arg0)) (m ((c : Thread nD τ).loc main_arg1)) (m ((c : Thread nD τ).loc main_arg2)) := by
  have hW : ent1 m ρ c main_v0 = tern (m ((c : Thread nD τ).loc main_arg1)) (m ((c : Thread nD τ).loc main_arg2)) :=
    (ent1_main_v0 m ρ c).trans (final0 (ent0 m ρ) c)
  have hA : ent1 m ρ c main_arg0 = m ((c : Thread nD τ).loc main_arg0) := ent1_main_arg0 m ρ c
  have hX : ∀ i, IsReal (ent1 m ρ c main_arg0 i) := fun i => by rw [hA]; exact hx i
  rw [mem2_main_v1, final1 (ent1 m ρ) c _ _ hX hW, hA]

end Cert.KernelIdeal.Fr

end
-- ==== Proof.RefValue.lean ====
/-
  The reference at `Ideal` is the same function, for real arguments. Its weight is written
  `([p > 0] + p − p) − ([n > 0] + n − n)`, which is the ternary weight when `p` and `n` hold reals; its `dot_general`
  contracts the second axis of `x` against the second axis of the weight, one 4096-term sum per entry; and its result
  `[y > 0] + y − y` is `[y > 0]` because `y`, a finite sum of products of reals, is real.
-/
import proofs.«181194_j68719476736056_2_alg».proof.Proof.Gen.ReferenceIdeal.Read
import proofs.«181194_j68719476736056_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Spec

/-- The three zero splats. -/
theorem zeroA (i : S4096x4096.Idx) : val_main_v0 (F := Ideal) i = 0 := by
  rw [val_main_v0_apply]; exact Ideal.ofBits_zero_f32
theorem zeroB (i : S4096x4096.Idx) : val_main_v5 (F := Ideal) i = 0 := by
  rw [val_main_v5_apply]; exact Ideal.ofBits_zero_f32
theorem zeroC (i : S4096x4096.Idx) : val_main_v12 (F := Ideal) i = 0 := by
  rw [val_main_v12_apply]; exact Ideal.ofBits_zero_f32

/-- `[p > 0] + p − p` is the indicator, for real `p`. -/
theorem v4_apply (p : S4096x4096.Idx → EReal) (hp : ∀ i, IsReal (p i)) (i : S4096x4096.Idx) :
    val_main_v4 (F := Ideal) p i = pos (p i) := by
  rw [val_main_v4_apply, val_main_v3_apply, val_main_v2_apply, val_main_v1_apply, zeroA]
  show (((Ideal.cmp .ogt (p i) 0).toNat : ℝ) : EReal) + p i - p i = _
  rw [uitofp_gt_zero, add_sub_self (pos_real _) (hp i)]

theorem v9_apply (n : S4096x4096.Idx → EReal) (hn : ∀ i, IsReal (n i)) (i : S4096x4096.Idx) :
    val_main_v9 (F := Ideal) n i = pos (n i) := by
  rw [val_main_v9_apply, val_main_v8_apply, val_main_v7_apply, val_main_v6_apply, zeroB]
  show (((Ideal.cmp .ogt (n i) 0).toNat : ℝ) : EReal) + n i - n i = _
  rw [uitofp_gt_zero, add_sub_self (pos_real _) (hn i)]

/-- The reference's weight is the ternary weight. -/
theorem v10_eq (p n : S4096x4096.Idx → EReal) (hp : ∀ i, IsReal (p i)) (hn : ∀ i, IsReal (n i)) :
    val_main_v10 (F := Ideal) p n = tern p n := by
  funext i
  rw [val_main_v10_apply, v4_apply p hp, v9_apply n hn]
  rfl

/-- Its `dot_general` at an entry is the row product over the whole contracted axis. -/
theorem v11_apply (x p n : S4096x4096.Idx → EReal) (hp : ∀ i, IsReal (p i)) (hn : ∀ i, IsReal (n i)) (i : S4096x4096.Idx) :
    val_main_v11 (F := Ideal) x p n i = dotRows x (tern p n) (i 0).val (i 1).val := by
  rw [val_main_v11_apply, v10_eq p n hp hn]
  unfold dotRows
  rw [Finset.sum_range]
  refine Finset.sum_congr rfl fun k _ => ?_
  rw [at2_of_lt x (i 0).isLt k.isLt, at2_of_lt (tern p n) (i 1).isLt k.isLt]
  have el : lidx_main_v11 i k = ix2 ⟨(i 0).val, (i 0).isLt⟩ ⟨k.val, k.isLt⟩ :=
    funext fun a => by match a with | ⟨0, _⟩ => rfl | ⟨1, _⟩ => rfl
  have er : ridx_main_v11 i k = ix2 ⟨(i 1).val, (i 1).isLt⟩ ⟨k.val, k.isLt⟩ :=
    funext fun a => by match a with | ⟨0, _⟩ => rfl | ⟨1, _⟩ => rfl
  exact congrArg₂ (· * ·) (congrArg x el) (congrArg (tern p n) er)

/-- The reference's result is `G`. -/
theorem result_eq (x p n : S4096x4096.Idx → EReal) (hx : ∀ i, IsReal (x i)) (hp : ∀ i, IsReal (p i)) (hn : ∀ i, IsReal (n i)) :
    val_main_v16 (F := Ideal) x p n = G x p n := by
  funext i
  rw [val_main_v16_apply, val_main_v15_apply, val_main_v14_apply, val_main_v13_apply, zeroC, v11_apply x p n hp hn]
  show (((Ideal.cmp .ogt (dotRows x (tern p n) (i 0).val (i 1).val) 0).toNat : ℝ) : EReal)
      + dotRows x (tern p n) (i 0).val (i 1).val - dotRows x (tern p n) (i 0).val (i 1).val = _
  rw [uitofp_gt_zero, add_sub_self (pos_real _) (dotRows_real x (tern p n) hx (tern_real p n) _ _)]
  rfl

end Cert.ReferenceIdeal.RefValue

end
-- ==== Proof.Finite.lean ====
/-
  What the precondition says at `Ideal`: each of the three argument arrays holds real numbers only. The printed
  predicate is the conjunction, over the three arrays, of "every entry's absolute value is below +∞"; on the
  extended reals `max a (-a) < ⊤` excludes exactly the two infinities.
-/
import proofs.«181194_j68719476736056_2_alg».proof.Pre_finite_inputs
import proofs.«181194_j68719476736056_2_alg».proof.Proof.Gen.Pre_finite_inputs
import Idealize.ShloMosaic.Lib.ReduceAll
import Idealize.ShloMosaic.Lib.ValueIdx
import Idealize.ShloMosaic.Lib.Pipeline.Value
import Idealize.ShloMosaic.Lib.Affine
import Idealize.ShloMosaic.PureOps.Ideal.Laws

noncomputable section

namespace Cert.Finite

open Idealize.ShloMosaic Cert.Pre_finite_inputs

instance : Subsingleton S_.Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value is below +∞ is a real. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- One array's conjunct, read at an entry. -/
theorem real_of_all (x : FVec Ideal S4096x4096 .f32) (init : IVec S_ 1)
    (h : Host.reduce IntOp.andi
        (cmpf .olt (Host.absf x) (broadcastInDim S4096x4096 ![] Facts.bcast_S_S4096x4096 (constant (F := Ideal) S_ .f32 0x7F800000#32)))
        init Facts.reducesTo_S4096x4096_S_d0_1 Facts.h_S_ ValueIdx.ix0 = 1#1)
    (i : S4096x4096.Idx) : ∃ r : ℝ, x i = (r : EReal) := by
  have hi := Host.reduce_andi_all _ _ _ _ _ h i
  refine real_of_abs_lt_top (x i) ?_
  have e : (broadcastInDim S4096x4096 ![] Facts.bcast_S_S4096x4096 (constant (F := Ideal) S_ .f32 0x7F800000#32)) i = (⊤ : EReal) := by
    rw [broadcastInDim_apply _ Facts.bcast_S_S4096x4096 _ i ValueIdx.ix0 (fun a => a.elim0)]
    exact inf_word
  have hc : Ideal.cmp .olt (max (x i) (-(x i))) (⊤ : EReal) = 1#1 := by
    rw [← e]; exact hi
  unfold Ideal.cmp at hc
  by_contra hn
  simp [hn] at hc

/-- The precondition gives all three. -/
theorem reals_of_pre (x pr nr : FVec Ideal S4096x4096 .f32)
    (h : fn (F := Ideal) x pr nr = fun _ => 1#1) :
    (∀ i, ∃ r : ℝ, x i = (r : EReal)) ∧ (∀ i, ∃ r : ℝ, pr i = (r : EReal)) ∧ (∀ i, ∃ r : ℝ, nr i = (r : EReal)) := by
  have h0 := congrFun h ValueIdx.ix0
  dsimp only [fn] at h0
  obtain ⟨h12, h3⟩ := IntOp.andi_eq_one.mp h0
  obtain ⟨h1, h2⟩ := IntOp.andi_eq_one.mp h12
  exact ⟨real_of_all x _ h1, real_of_all pr _ h2, real_of_all nr _ h3⟩

end Cert.Finite

end
-- ==== Proof.lean ====
/-
  The five claims. Both kernel programs are two pallas_calls in a row: a pointwise pass that writes the ternary
  weight `[p > 0] − [n > 0]`, then a blocked matrix product accumulated over four blocks of the contracted
  dimension in a scratch buffer, thresholded at zero at the last block. Their frames come from one run theorem
  each (the same text at both instances); the idealized kernel's run also names what the result array holds. At
  `Ideal` and for real inputs — which is what the precondition says — that is `G`: the indicator of the 4096-term row
  product of `x` against the ternary weight; the reference computes the same `G`, its `q + a − a` forms collapsing
  for real `a`. The one ledger entry (a rounding to bf16 widened straight back) is the rule's own statement.
-/
import proofs.«181194_j68719476736056_2_alg».proof.Defs
import proofs.«181194_j68719476736056_2_alg».proof.Proof.Gen.Kernel
import proofs.«181194_j68719476736056_2_alg».proof.Proof.Gen.Kernel.Skeleton
import proofs.«181194_j68719476736056_2_alg».proof.Proof.Gen.Kernel.Launch
import proofs.«181194_j68719476736056_2_alg».proof.Proof.Gen.Kernel.Regions
import proofs.«181194_j68719476736056_2_alg».proof.Proof.Gen.Kernel.Points
import proofs.«181194_j68719476736056_2_alg».proof.Proof.Gen.KernelIdeal
import proofs.«181194_j68719476736056_2_alg».proof.Proof.Gen.KernelIdeal.Skeleton
import proofs.«181194_j68719476736056_2_alg».proof.Proof.Gen.KernelIdeal.Launch
import proofs.«181194_j68719476736056_2_alg».proof.Proof.Gen.KernelIdeal.Regions
import proofs.«181194_j68719476736056_2_alg».proof.Proof.Gen.KernelIdeal.Points
import proofs.«181194_j68719476736056_2_alg».proof.Proof.Gen.ReferenceIdeal
import proofs.«181194_j68719476736056_2_alg».proof.Proof.Gen.ReferenceIdeal.Run
import proofs.«181194_j68719476736056_2_alg».proof.Proof.Gen.ReferenceIdeal.Read
import proofs.«181194_j68719476736056_2_alg».proof.Proof.Gen.Pre_finite_inputs
import proofs.«181194_j68719476736056_2_alg».proof.Proof.WholeBits
import proofs.«181194_j68719476736056_2_alg».proof.Proof.Whole
import proofs.«181194_j68719476736056_2_alg».proof.Proof.Bridge
import proofs.«181194_j68719476736056_2_alg».proof.Proof.RefValue
import proofs.«181194_j68719476736056_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: widening a rounded value back is the identity at `Ideal`. -/
theorem preserves : Cert.preserves_Kernel_KernelIdeal :=
  IdealRules.truncf_extf.statement _ .f32 .bf16

/-- Both runs end at `G` of the shared arguments, which the precondition makes real. -/
theorem algebraic : Cert.algebraic_KernelIdeal_ReferenceIdeal := by
  intro m ρ m' ρ' hpre hagree
  have hre := fun c => Cert.Finite.reals_of_pre _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Fr.result_is_G m ρ c (hre c).1), (h c).2⟩)
      (Cert.KernelIdeal.Fr.run_main m ρ)
  · refine (θ_run Cert.ReferenceIdeal.defs _ _).mono (fun r h c => ⟨?_, (h c).2⟩)
      (Cert.ReferenceIdeal.Value.run (F := Ideal) m' ρ')
    rw [(h c).1, (hagree c).1, (hagree c).2.1, (hagree c).2.2, Cert.ReferenceIdeal.Read.val_main_v16_eq,
      Cert.ReferenceIdeal.RefValue.result_eq _ _ _ (hre c).1 (hre c).2.1 (hre c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
